-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x32 : Shape := ⟨2, ![12000, 32]⟩
abbrev S12000x12000 : Shape := ⟨2, ![12000, 12000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S12000x32 : S_.BroadcastsInDim S12000x32 (![] : Fin 0 → Fin S12000x32.rank)
  reducesTo_S12000x32_S_d0_1 : S12000x32.ReducesTo [0, 1] S_
  h_S_ : 0 < S_.numel
  bcast_S_S12000x12000 : S_.BroadcastsInDim S12000x12000 (![] : Fin 0 → Fin S12000x12000.rank)
  reducesTo_S12000x12000_S_d0_1 : S12000x12000.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S12000x32 .f32) (main_arg1 : FVec F S12000x12000 .f32) (main_arg2 : FVec F S32x32 .f32) (main_arg3 : FVec F S32 .f32) (main_arg4 : FVec F S32x16 .f32) (main_arg5 : FVec F S16 .f32) : IVec S_ 1 :=
  let main_v0 : FVec F S12000x32 .f32 := Host.absf main_arg0
  let main_cst : FVec F S_ .f32 := constant S_ .f32 0x7F800000#32
  let main_v1 : FVec F S12000x32 .f32 := broadcastInDim S12000x32 ![] bcast_S_S12000x32 main_cst
  let main_v2 : IVec S12000x32 1 := cmpf .olt main_v0 main_v1
  let main_c : IVec S_ 1 := constantI S_ 1 1#1
  let main_v3 : IVec S_ 1 := (fun x v => Host.reduce IntOp.andi x v reducesTo_S12000x32_S_d0_1 h_S_) main_v2 main_c
  let main_v4 : FVec F S12000x12000 .f32 := Host.absf main_arg1
  let main_cst_0 : FVec F S_ .f32 := constant S_ .f32 0x7F800000#32
  let main_v5 : FVec F S12000x12000 .f32 := broadcastInDim S12000x12000 ![] bcast_S_S12000x12000 main_cst_0
  let main_v6 : IVec S12000x12000 1 := cmpf .olt main_v4 main_v5
  let main_c_1 : IVec S_ 1 := constantI S_ 1 1#1
  let main_v7 : IVec S_ 1 := (fun x v => Host.reduce IntOp.andi x v reducesTo_S12000x12000_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S12000x32 : Shape := ⟨2, ![12000, 32]⟩
abbrev S12000x12000 : Shape := ⟨2, ![12000, 12000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S12000x16 : Shape := ⟨2, ![12000, 16]⟩
abbrev S2048x2048 : Shape := ⟨2, ![2048, 2048]⟩
abbrev S2048x32 : Shape := ⟨2, ![2048, 32]⟩
abbrev S2048x16 : Shape := ⟨2, ![2048, 16]⟩

abbrev nBuf : Space → Nat
  | .hbm => 9
  | .vmem => 11
  | .smem => 0
  | _ => 0

abbrev bufTy : (tb : Table) → Fin (tcTables nBuf tb) → BufTy
  | .hbm, ⟨0, _⟩ => ⟨S12000x32, .f32⟩
  | .hbm, ⟨1, _⟩ => ⟨S12000x12000, .f32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S12000x16, .f32⟩
  | .local _ .vmem, ⟨0, _⟩ => ⟨S2048x2048, .f32⟩
  | .local _ .vmem, ⟨1, _⟩ => ⟨S2048x2048, .f32⟩
  | .local _ .vmem, ⟨2, _⟩ => ⟨S2048x32, .f32⟩
  | .local _ .vmem, ⟨3, _⟩ => ⟨S2048x32, .f32⟩
  | .local _ .vmem, ⟨4, _⟩ => ⟨S32x32, .f32⟩
  | .local _ .vmem, ⟨5, _⟩ => ⟨S1x32, .f32⟩
  | .local _ .vmem, ⟨6, _⟩ => ⟨S32x16, .f32⟩
  | .local _ .vmem, ⟨7, _⟩ => ⟨S1x16, .f32⟩
  | .local _ .vmem, ⟨8, _⟩ => ⟨S2048x16, .f32⟩
  | .local _ .vmem, ⟨9, _⟩ => ⟨S2048x16, .f32⟩
  | .local _ .vmem, ⟨10, _⟩ => ⟨S2048x32, .f32⟩
  | _, _ => ⟨S12000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![6, 6], ![false, false]⟩

def k0_cond2 (i : grid0.Coords) : BitVec 1 :=
  let arg1 : BitVec 32 := BitVec.ofNat 32 (i 1).val
  let c5_i32 : BitVec 32 := 5#32
  let v25 : BitVec 1 := Scalar.cmpi .eq arg1 c5_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S32_S1x32 : S32.ShapeCasts S1x32
  shapeCasts_S16_S1x16 : S16.ShapeCasts S1x16
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  iota_S2048x32_d0_w32 : S2048x32.Iotas .tc 32 [0]
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S2048x2048_S2048x2048_0_0 : ∀ a, (![0, 0] : Fin 2 → Nat) a + S2048x2048.size a ≤ S2048x2048.size a
  h_S2048x2048 : 0 < S2048x2048.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  dot_S2048x32_S32x32_S2048x32_1_0_0_1_n_n_wf : DotDims.WF S2048x32 S32x32 S2048x32 [1] [0] [0] [1] [] []
  dot_S2048x2048_S2048x32_S2048x32_1_0_0_1_n_n_wf : DotDims.WF S2048x2048 S2048x32 S2048x32 [1] [0] [0] [1] [] []
  dot_S2048x32_S32x16_S2048x16_1_0_0_1_n_n_wf : DotDims.WF S2048x32 S32x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x2048.size a < S12000x12000.size a
  hwx0_0 : ∀ i : grid0.Coords, EltTy.bits .f32 = 32 ∨ (Rect.unit (s := S12000x12000) (fun a => cc0_transform_0 i a * S2048x2048.size a) (fun a => (Pipeline.Clip.of (cc0_transform_0 i a) (S2048x2048.size a) (S12000x12000.size a)).extent (S2048x2048.size a)) fun a => Pipeline.Clip.inb (Pipeline.Clip.ok_of (hstart0_0 i a))).WholeWords (EltTy.packing .f32)
  hwxs0_0 : ∀ i : grid0.Coords, EltTy.bits .f32 = 32 ∨ (Rect.unit (s := S2048x2048) (fun _ => 0) (fun a => (Pipeline.Clip.of (cc0_transform_0 i a) (S2048x2048.size a) (S12000x12000.size a)).extent (S2048x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x32.size a < S12000x32.size a
  hwx0_1 : ∀ i : grid0.Coords, EltTy.bits .f32 = 32 ∨ (Rect.unit (s := S12000x32) (fun a => cc0_transform_1 i a * S2048x32.size a) (fun a => (Pipeline.Clip.of (cc0_transform_1 i a) (S2048x32.size a) (S12000x32.size a)).extent (S2048x32.size a)) fun a => Pipeline.Clip.inb (Pipeline.Clip.ok_of (hstart0_1 i a))).WholeWords (EltTy.packing .f32)
  hwxs0_1 : ∀ i : grid0.Coords, EltTy.bits .f32 = 32 ∨ (Rect.unit (s := S2048x32) (fun _ => 0) (fun a => (Pipeline.Clip.of (cc0_transform_1 i a) (S2048x32.size a) (S12000x32.size a)).extent (S2048x32.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S2048x16.size a < S12000x16.size a
  hwx0_6 : ∀ i : grid0.Coords, EltTy.bits .f32 = 32 ∨ (Rect.unit (s := S12000x16) (fun a => cc0_transform_6 i a * S2048x16.size a) (fun a => (Pipeline.Clip.of (cc0_transform_6 i a) (S2048x16.size a) (S12000x16.size a)).extent (S2048x16.size a)) fun a => Pipeline.Clip.inb (Pipeline.Clip.ok_of (hstart0_6 i a))).WholeWords (EltTy.packing .f32)
  hwxs0_6 : ∀ i : grid0.Coords, EltTy.bits .f32 = 32 ∨ (Rect.unit (s := S2048x16) (fun _ => 0) (fun a => (Pipeline.Clip.of (cc0_transform_6 i a) (S2048x16.size a) (S12000x16.size a)).extent (S2048x16.size a)) fun a => (Nat.zero_add _).trans_le (Pipeline.Clip.extent_le (Pipeline.Clip.ok_of (hstart0_6 i a)))).WholeWords (EltTy.packing .f32)

variable [Facts₀]

def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf

abbrev win0_0 : Pipeline.Window sig grid0 :=
  Pipeline.Window.ofSpecClip (Memref.whole main_arg1) S2048x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S2048x32.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v2) S2048x16.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S12000x32 : Shape := ⟨2, ![12000, 32]⟩
abbrev S12000x12000 : Shape := ⟨2, ![12000, 12000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S12000x16 : Shape := ⟨2, ![12000, 16]⟩
abbrev S1x16 : Shape := ⟨2, ![1, 16]⟩

abbrev nBuf : Space → Nat
  | .hbm => 15
  | .vmem => 0
  | .smem => 0
  | _ => 0

abbrev bufTy : (tb : Table) → Fin (tcTables nBuf tb) → BufTy
  | .hbm, ⟨0, _⟩ => ⟨S12000x32, .f32⟩
  | .hbm, ⟨1, _⟩ => ⟨S12000x12000, .f32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S12000x32, .f32⟩
  | .hbm, ⟨7, _⟩ => ⟨S12000x32, .f32⟩
  | .hbm, ⟨8, _⟩ => ⟨S1x32, .f32⟩
  | .hbm, ⟨9, _⟩ => ⟨S12000x32, .f32⟩
  | .hbm, ⟨10, _⟩ => ⟨S12000x32, .f32⟩
  | .hbm, ⟨11, _⟩ => ⟨S12000x16, .f32⟩
  | .hbm, ⟨12, _⟩ => ⟨S1x16, .f32⟩
  | .hbm, ⟨13, _⟩ => ⟨S12000x16, .f32⟩
  | .hbm, ⟨14, _⟩ => ⟨S12000x16, .f32⟩
  | _, _ => ⟨S12000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S12000x32_0_1 : S1x32.BroadcastsInDim S12000x32 (![0, 1] : Fin 2 → Fin S12000x32.rank)
  bcast_S16_S1x16_1 : S16.BroadcastsInDim S1x16 (![1] : Fin 1 → Fin S1x16.rank)
  bcast_S1x16_S12000x16_0_1 : S1x16.BroadcastsInDim S12000x16 (![0, 1] : Fin 2 → Fin S12000x16.rank)
  dot_S12000x32_S32x32_S12000x32_1_0_0_1_n_n_wf : DotDims.WF S12000x32 S32x32 S12000x32 [1] [0] [0] [1] [] []
  dot_S12000x12000_S12000x32_S12000x32_1_0_0_1_n_n_wf : DotDims.WF S12000x12000 S12000x32 S12000x32 [1] [0] [0] [1] [] []
  dot_S12000x32_S32x16_S12000x16_1_0_0_1_n_n_wf : DotDims.WF S12000x32 S32x16 S12000x16 [1] [0] [0] [1] [] []

variable [Facts₀]

def dot_S12000x32_S32x32_S12000x32_1_0_0_1_n_n : DotDims S12000x32 S32x32 S12000x32 where
  lhsContracting := [1]
  rhsContracting := [0]
  lhsNonContracting := [0]
  rhsNonContracting := [1]
  lhsBatch := []
  rhsBatch := []
  wf := dot_S12000x32_S32x32_S12000x32_1_0_0_1_n_n_wf
def dot_S12000x12000_S12000x32_S12000x32_1_0_0_1_n_n : DotDims S12000x12000 S12000x32 S12000x32 where
  lhsContracting := [1]
  rhsContracting := [0]
  lhsNonContracting := [0]
  rhsNonContracting := [1]
  lhsBatch := []
  rhsBatch := []
  wf := dot_S12000x12000_S12000x32_S12000x32_1_0_0_1_n_n_wf
def dot_S12000x32_S32x16_S12000x16_1_0_0_1_n_n : DotDims S12000x32 S32x16 S12000x16 where
  lhsContracting := [1]
  rhsContracting := [0]
  lhsNonContracting := [0]
  rhsNonContracting := [1]
  lhsBatch := []
  rhsBatch := []
  wf := dot_S12000x32_S32x16_S12000x16_1_0_0_1_n_n_wf

class Facts : Prop extends Facts₀ where

variable [Facts]
-- ==== Proof.BitsRuns.lean ====
/-
  The kernel body run once per control case. The body has two conditionals on the second grid coordinate
  (the column-block index j of the adjacency matrix): at j = 0 it zeroes the accumulator first, at j = 5 it
  finishes the row block — adds the first bias, multiplies by the second weight matrix, adds the second bias
  and stores the output block. On a grid of six column blocks no point is both, so there are three cases.
  Each run is stated on arbitrary whole staging buffers holding given contents, for any float instance, and
  its witness is the list of pieces the stores leave in the accumulator (and, at j = 5, in the output buffer).
-/
import proofs.«118109_j22737556865408_2_alg».proof.Proof.Gen.Kernel.Frame
import proofs.«118109_j22737556865408_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, as propositions over the grid coordinates -/

/-- The body's first conditional: the point is the first of its row of column blocks (second coordinate zero),
    where the accumulator is reset. -/
abbrev isFirst (i : grid0.Coords) : Prop := (Scalar.cmpi .ne (Scalar.extui (Scalar.cmpi .eq (BitVec.ofNat 32 (i 1).val) 0#32)) 0#32) = 1#1
/-- The body's second conditional: the point is the last of its row of column blocks (second coordinate five),
    where the output block is computed from the accumulator and stored. -/
abbrev isLast (i : grid0.Coords) : Prop := k0_cond2 i = 1#1

/-! ## The body at the first point of a row of column blocks -/

set_option maxHeartbeats 1000000 in
/-- There the body first stores zeros over the whole accumulator (whatever it held), then loads the inputs and the
    accumulator and stores the accumulator again: two stores' pieces. -/
noncomputable def runFirst (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : isFirst i) (hc1 : ¬isLast i)
    (x0 : Vec F S2048x2048 .f32) (x1 : Vec F S2048x32 .f32) (x2 : Vec F S32x32 .f32) :
    { LS : List (View.Piece (Elt F) S2048x32 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a9 fullShare d)
            ∗ (iprop(owns (c : Thread nD τ) a2 fullShare x0 ∗ owns (c : Thread nD τ) a3 fullShare x1 ∗ owns (c : Thread nD τ) a4 fullShare x2 ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%ds, %fs, -, HS⟩, Hk⟩
    obtain rfl := h2.eq_unread hf0; obtain rfl := h3.eq_unread hf1; obtain rfl := h4.eq_unread hf2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    iexists _; iexact HS

/-! ## The body at a point that is neither first nor last of its row -/

set_option maxHeartbeats 1000000 in
/-- At such a point the body loads the three input buffers and the accumulator and stores the accumulator once:
    the run's witness is the list of pieces that store leaves. -/
noncomputable def runMid (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : ¬isFirst i) (hc1 : ¬isLast i)
    (x0 : Vec F S2048x2048 .f32) (x1 : Vec F S2048x32 .f32) (x2 : Vec F S32x32 .f32) (xs : Vec F S2048x32 .f32) :
    { LS : List (View.Piece (Elt F) S2048x32 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a9 fullShare xs
            ∗ (iprop(owns (c : Thread nD τ) a2 fullShare x0 ∗ owns (c : Thread nD τ) a3 fullShare x1 ∗ owns (c : Thread nD τ) a4 fullShare x2 ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%fs, %hfs, HS⟩, Hk⟩
    obtain rfl := h2.eq_unread hf0; obtain rfl := h3.eq_unread hf1; obtain rfl := h4.eq_unread hf2; obtain rfl := h9.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    iexists _; iexact HS

/-! ## The body at the last point of a row of column blocks -/

set_option maxHeartbeats 1000000 in
/-- There the body updates the accumulator as at a middle point, then loads it again with the two bias rows and the
    second weight matrix and stores the output block whole: one store's pieces for the output buffer, one for the
    accumulator. -/
noncomputable def runLast (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : ¬isFirst i) (hc1 : isLast i)
    (x0 : Vec F S2048x2048 .f32) (x1 : Vec F S2048x32 .f32) (x2 : Vec F S32x32 .f32) (x3 : Vec F S1x32 .f32) (x4 : Vec F S32x16 .f32) (x5 : Vec F S1x16 .f32) (xs : Vec F S2048x32 .f32) :
    Σ' (L6 : List (View.Piece (Elt F) S2048x16 .f32)), { LS : List (View.Piece (Elt F) S2048x32 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L6) ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h9.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    iexists _; iexact HS

end Cert.Kernel.Hand

end
-- ==== Proof.BitsBody.lean ====
/-
  The frame of the word-level kernel. Its adjacency, feature and output windows do not tile their arrays (12000
  rows and columns in blocks of 2048): a block at an array's end overhangs it, its staging buffer holds words
  nothing names past the array's end, and what the body computes from them lands in the accumulator and in the
  output buffer. So the output window's contents are not named here (the window is forgotten: handed over at
  any contents and taken back at any contents) and the accumulator is held at some contents throughout; the inputs'
  buffers are handed back as found. That is enough for the frame: the run terminates, nothing faults, and the
  argument arrays, which no write-back touches, end as they began.
-/
import proofs.«118109_j22737556865408_2_alg».proof.Proof.BitsRuns
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the two conditions hold on the grid -/

/-- The point is first of its row of column blocks exactly when its number is a multiple of six; -/
theorem first_iff : ∀ t : Fin cfg0.N, isFirst (grid0.coords t) ↔ t.val % 6 = 0 :=
  (by decide +kernel : ∀ t : Fin grid0.N, isFirst (grid0.coords t) ↔ t.val % 6 = 0)
/-- last exactly when it is five more than one. -/
theorem last_iff : ∀ t : Fin cfg0.N, isLast (grid0.coords t) ↔ t.val % 6 = 5 :=
  (by decide +kernel : ∀ t : Fin grid0.N, isLast (grid0.coords t) ↔ t.val % 6 = 5)

/-- The accumulator: the kernel's one scratch buffer, whole. -/
abbrev accM : Memref sig .tc .vmem S2048x32 .f32 := Memref.whole cc0_scratch0

/-- What the region hands the body besides the windows: the accumulator at some contents and the generator's
    register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-- A buffer held at some raw contents is owned at what they read as. -/
theorem owns_some (c : Dev nD) {S : Shape} {e : EltTy} (a : Memref sig .tc .vmem S e) (f : a.view.ty.Contents (Elt F)) :
    (a.view.loc (c : Thread nD τ) ↦[a.view.set]{fullShare} f : sProp 𝕄) ⊢ iprop(∃ d, owns (c : Thread nD τ) a fullShare d) := by
  iintro H; iexists (a.view.read (Elt F) f); unfold owns; iexists f; isplitr
  · ipureintro; rfl
  iexact H

/-! ## The proof data -/

/-- The output window is forgotten. -/
abbrev fgt : Fin 7 → Bool := fun | 0 => false | 1 => false | 2 => false | 3 => false | 4 => false | 5 => false | 6 => true | ⟨_ + 7, h⟩ => absurd h (Nat.not_lt.2 (Nat.le_add_left _ _))

/-- The arrays as the region finds them; after the body each input's buffer at its block (the two clipped windows'
    filled out past the array's end by a word nothing reads); the output's unnamed; the invariant the accumulator
    at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => iblk m c 4 t
    | ⟨5, _⟩ => iblk m c 5 t
    | ⟨6, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) (fun _ => Scalar.ofBits .f32 0#32) (iblk m c 0 t) := by dsimp only [dats]
theorem after_1 (c : Dev nD) (t : Fin cfg0.N) : (dats m 0 c).after 1 t = win0_1.fill (grid0.coords t) (fun _ => Scalar.ofBits .f32 0#32) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- The two clipped inputs are fetched at every point: their buffers hold the block on the part inside the array,
    anything past it. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
/-- The four whole inputs hold their one block at every point. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

set_option maxHeartbeats 800000 in
/-- At every point the body runs from the inputs' buffers at what they hold, the output's and the accumulator at
    anything, and hands all of them back: the inputs' as found, the other two at anything. By the point's case. -/
theorem body_obligation (c : Dev nD) :
    Pipeline.BodyObligationLoose (dats m 0 c) (defs₀ (F := F)) Variants.none () Set.univ fgt := fun t => by
  rw [bigSep_W0, bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%X6, H6⟩⟩
  rw [before_0 m c t d0, before_1 m c t d1, before_2 m c t d2, before_3 m c t d3, before_4 m c t d4, before_5 m c t d5]
  have e0 : win0_0.cut (grid0.coords t) ((dats m 0 c).after 0 t) = iblk m c 0 t := by rw [after_0]; exact win0_0.cut_fill _ _ _
  have e1 : win0_1.cut (grid0.coords t) ((dats m 0 c).after 1 t) = iblk m c 1 t := by rw [after_1]; exact win0_1.cut_fill _ _ _
  by_cases hf : t.val % 6 = 0
  · have hl : ¬ t.val % 6 = 5 := by omega
    iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) ((first_iff t).mpr hf) (fun h => hl ((last_iff t).mp h)) _ _ _).2 Set.univ _)
    isplitl [H0]; · iexact H0
    isplitl [H1]; · iexact H1
    isplitl [H2]; · iexact H2
    isplitl [HS]; · iexists _; iexact HS
    iintro ⟨H0, H1, H2, ⟨%fs, HS⟩⟩
    isplitl [HS Hg]
    · isplitl [HS]
      · iapply (owns_some c accM _); iexact HS
      iexact Hg
    isplitl [Ho]; · iexact Ho
    isplitl [H0]
    · iexists d0
      change _ ⊢ owns (c : Thread nD τ) (win0_0.stage (cfg0.slots t 0)) fullShare (win0_0.fill (grid0.coords t) d0 (win0_0.cut (grid0.coords t) ((dats m 0 c).after 0 t)))
      rw [e0]; try iexact H0
    isplitl [H1]
    · iexists d1
      change _ ⊢ owns (c : Thread nD τ) (win0_1.stage (cfg0.slots t 1)) fullShare (win0_1.fill (grid0.coords t) d1 (win0_1.cut (grid0.coords t) ((dats m 0 c).after 1 t)))
      rw [e1]; try iexact H1
    isplitl [H2]; · rw [after_2]; iexact H2
    isplitl [H3]; · rw [after_3]; iexact H3
    isplitl [H4]; · rw [after_4]; iexact H4
    isplitl [H5]; · rw [after_5]; iexact H5
    iexists _; iexact H6
  by_cases hl : t.val % 6 = 5
  · iapply ((runLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (fun h => hf ((first_iff t).mp h)) ((last_iff t).mpr hl) _ _ _ _ _ _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%f6, H6⟩, ⟨%fs, HS⟩⟩
    isplitl [HS Hg]
    · isplitl [HS]
      · iapply (owns_some c accM _); iexact HS
      iexact Hg
    isplitl [Ho]; · iexact Ho
    isplitl [H0]
    · iexists d0
      change _ ⊢ owns (c : Thread nD τ) (win0_0.stage (cfg0.slots t 0)) fullShare (win0_0.fill (grid0.coords t) d0 (win0_0.cut (grid0.coords t) ((dats m 0 c).after 0 t)))
      rw [e0]; try iexact H0
    isplitl [H1]
    · iexists d1
      change _ ⊢ owns (c : Thread nD τ) (win0_1.stage (cfg0.slots t 1)) fullShare (win0_1.fill (grid0.coords t) d1 (win0_1.cut (grid0.coords t) ((dats m 0 c).after 1 t)))
      rw [e1]; try iexact H1
    isplitl [H2]; · rw [after_2]; iexact H2
    isplitl [H3]; · rw [after_3]; iexact H3
    isplitl [H4]; · rw [after_4]; iexact H4
    isplitl [H5]; · rw [after_5]; iexact H5
    iapply (owns_some c _ _); iexact H6
  · iapply ((runMid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (fun h => hf ((first_iff t).mp h)) (fun h => hl ((last_iff t).mp h)) _ _ _ _).2 Set.univ _)
    isplitl [H0]; · iexact H0
    isplitl [H1]; · iexact H1
    isplitl [H2]; · iexact H2
    isplitl [HS]; · iexact HS
    iintro ⟨H0, H1, H2, ⟨%fs, HS⟩⟩
    isplitl [HS Hg]
    · isplitl [HS]
      · iapply (owns_some c accM _); iexact HS
      iexact Hg
    isplitl [Ho]; · iexact Ho
    isplitl [H0]
    · iexists d0
      change _ ⊢ owns (c : Thread nD τ) (win0_0.stage (cfg0.slots t 0)) fullShare (win0_0.fill (grid0.coords t) d0 (win0_0.cut (grid0.coords t) ((dats m 0 c).after 0 t)))
      rw [e0]; try iexact H0
    isplitl [H1]
    · iexists d1
      change _ ⊢ owns (c : Thread nD τ) (win0_1.stage (cfg0.slots t 1)) fullShare (win0_1.fill (grid0.coords t) d1 (win0_1.cut (grid0.coords t) ((dats m 0 c).after 1 t)))
      rw [e1]; try iexact H1
    isplitl [H2]; · rw [after_2]; iexact H2
    isplitl [H3]; · rw [after_3]; iexact H3
    isplitl [H4]; · rw [after_4]; iexact H4
    isplitl [H5]; · rw [after_5]; iexact H5
    iexists _; iexact H6

/-! ## The run and the frame -/

set_option backward.isDefEq.respectTransparency.types false in
/-- Every weakly fair execution of the program terminates without a fault, each input array ending at its entry
    contents and the output array at some contents the write-backs may leave. -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget)
    (hshare := fun c => (dats m 0 c).share_full fun _ => rfl)
    (howed := fun _ _ => rfl) (V := V m) (hmain := hmain m Variants.none) (hA := fun c w => A_eq m c w) (hΦ := fun _ _ => rfl)

/-- The frame: the six argument arrays end as they began — four are inputs of the pipeline, never written; the two
    bias vectors bypass it (the pipeline stages their reshaped copies). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  have hin : ∀ w : Fin 7, (cfg0.win w).isOut = false →
      r.2.mem ((cfg0.spec w).arr.view.loc (c.tc : Thread nD τ)) = V m c (Pipeline.arrRef spec0 w) := fun w hw => by
    have h1 : ((dats m 0 c).toRForget fgt).ArrAt w cfg0.N (r.2.mem ((cfg0.spec w).arr.view.loc (c.tc : Thread nD τ))) := (h c).1 w
    have h2 := Eq.mp (congrFun (((dats m 0 c).toRForget fgt).ArrAt_in w hw cfg0.N) _) h1
    exact h2.trans (A_eq m c w)
  exact ⟨(hin 1 rfl).trans (V_main_arg0 m c), (hin 0 rfl).trans (V_main_arg1 m c), (hin 2 rfl).trans (V_main_arg2 m c),
    ((h c).2 main_arg3 (Pipeline.mem_restRefs_of main_arg3 (by decide) (by decide))).trans (V_main_arg3 m c),
    (hin 4 rfl).trans (V_main_arg4 m c),
    ((h c).2 main_arg5 (Pipeline.mem_restRefs_of main_arg5 (by decide) (by decide))).trans (V_main_arg5 m c)⟩

end Cert.Kernel.Hand

end
-- ==== Proof.IdealRuns.lean ====
/-
  The kernel body run once per control case. The body has two conditionals on the second grid coordinate
  (the column-block index j of the adjacency matrix): at j = 0 it zeroes the accumulator first, at j = 5 it
  finishes the row block — adds the first bias, multiplies by the second weight matrix, adds the second bias
  and stores the output block. On a grid of six column blocks no point is both, so there are three cases.
  Each run is stated on arbitrary whole staging buffers holding given contents, for any float instance, and
  its witness is the list of pieces the stores leave in the accumulator (and, at j = 5, in the output buffer).
-/
import proofs.«118109_j22737556865408_2_alg».proof.Proof.Gen.KernelIdeal.Frame
import proofs.«118109_j22737556865408_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, as propositions over the grid coordinates -/

/-- The body's first conditional: the point is the first of its row of column blocks (second coordinate zero),
    where the accumulator is reset. -/
abbrev isFirst (i : grid0.Coords) : Prop := (Scalar.cmpi .ne (Scalar.extui (Scalar.cmpi .eq (BitVec.ofNat 32 (i 1).val) 0#32)) 0#32) = 1#1
/-- The body's second conditional: the point is the last of its row of column blocks (second coordinate five),
    where the output block is computed from the accumulator and stored. -/
abbrev isLast (i : grid0.Coords) : Prop := k0_cond2 i = 1#1

/-! ## The body at the first point of a row of column blocks -/

set_option maxHeartbeats 1000000 in
/-- There the body first stores zeros over the whole accumulator (whatever it held), then loads the inputs and the
    accumulator and stores the accumulator again: two stores' pieces. -/
noncomputable def runFirst (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : isFirst i) (hc1 : ¬isLast i)
    (x0 : Vec F S2048x2048 .f32) (x1 : Vec F S2048x32 .f32) (x2 : Vec F S32x32 .f32) :
    { LS : List (View.Piece (Elt F) S2048x32 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a9 fullShare d)
            ∗ (iprop(owns (c : Thread nD τ) a2 fullShare x0 ∗ owns (c : Thread nD τ) a3 fullShare x1 ∗ owns (c : Thread nD τ) a4 fullShare x2 ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%ds, %fs, -, HS⟩, Hk⟩
    obtain rfl := h2.eq_unread hf0; obtain rfl := h3.eq_unread hf1; obtain rfl := h4.eq_unread hf2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    iexists _; iexact HS

/-! ## The body at a point that is neither first nor last of its row -/

set_option maxHeartbeats 1000000 in
/-- At such a point the body loads the three input buffers and the accumulator and stores the accumulator once:
    the run's witness is the list of pieces that store leaves. -/
noncomputable def runMid (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : ¬isFirst i) (hc1 : ¬isLast i)
    (x0 : Vec F S2048x2048 .f32) (x1 : Vec F S2048x32 .f32) (x2 : Vec F S32x32 .f32) (xs : Vec F S2048x32 .f32) :
    { LS : List (View.Piece (Elt F) S2048x32 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a9 fullShare xs
            ∗ (iprop(owns (c : Thread nD τ) a2 fullShare x0 ∗ owns (c : Thread nD τ) a3 fullShare x1 ∗ owns (c : Thread nD τ) a4 fullShare x2 ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%fs, %hfs, HS⟩, Hk⟩
    obtain rfl := h2.eq_unread hf0; obtain rfl := h3.eq_unread hf1; obtain rfl := h4.eq_unread hf2; obtain rfl := h9.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    iexists _; iexact HS

/-! ## The body at the last point of a row of column blocks -/

set_option maxHeartbeats 1000000 in
/-- There the body updates the accumulator as at a middle point, then loads it again with the two bias rows and the
    second weight matrix and stores the output block whole: one store's pieces for the output buffer, one for the
    accumulator. -/
noncomputable def runLast (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : ¬isFirst i) (hc1 : isLast i)
    (x0 : Vec F S2048x2048 .f32) (x1 : Vec F S2048x32 .f32) (x2 : Vec F S32x32 .f32) (x3 : Vec F S1x32 .f32) (x4 : Vec F S32x16 .f32) (x5 : Vec F S1x16 .f32) (xs : Vec F S2048x32 .f32) :
    Σ' (L6 : List (View.Piece (Elt F) S2048x16 .f32)), { LS : List (View.Piece (Elt F) S2048x32 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L6) ∗ (∃ f, a9.view.loc (c : Thread nD τ) ↦[a9.view.set]{fullShare} a9.view.writes (Elt F) f LS)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5; obtain rfl := h9.eq_unread hfs
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]; · iexists _; iexact H6
    iexists _; iexact HS

end Cert.KernelIdeal.Hand

end
-- ==== Proof.IdealPieces.lean ====
/-
  What the body leaves in the accumulator and in the output buffer, per control case, as one of the body's three
  pure payloads applied to the contents it was handed: every load of the body reads a whole buffer and every store
  overwrites a whole buffer, so a buffer ends at the payload of the last store into it.
-/
import proofs.«118109_j22737556865408_2_alg».proof.Proof.IdealRuns
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A whole-block store, last, leaves its payload -/

theorem zeros2 : (![0, 0] : Fin 2 → Nat) = fun _ => 0 := funext fun a => by fin_cases a <;> rfl

/-- Reading back, through any view of the shape, a list of writes whose LAST one went through the whole-shape
    rectangle at offset zero gives that write's payload, whatever came before. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## What each case leaves, as a payload of what it was handed -/

/-- A middle point leaves the accumulator at the update payload of the three input buffers and the accumulator's
    previous contents. -/
theorem leftMid (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : ¬isFirst i) (hc1 : ¬isLast i)
    (x0 : Vec F S2048x2048 .f32) (x1 : Vec F S2048x32 .f32) (x2 : Vec F S32x32 .f32) (xs : Vec F S2048x32 .f32)
    (f : a9.view.ty.Contents (Elt F)) :
    a9.view.read (Elt F) (a9.view.writes (Elt F) f (runMid c i a2 h2 a3 h3 a4 h4 a5 h5 a6 h6 a7 h7 a8 h8 a9 h9 hc0 hc1 x0 x1 x2 xs).1)
      = k0_pay2 i x1 x2 x0 xs := by
  unfold runMid; dsimp only
  rw [read_writes_whole _ _ zeros2]
  simp only [View.readAt_eq_ld, h2.read_unread, h3.read_unread, h4.read_unread, h9.read_unread]
  rw [View.ld_unit_zero zeros2, View.ld_unit_zero zeros2, View.ld_unit_zero zeros2, View.ld_unit_zero zeros2]

/-- A first point leaves the accumulator at the update payload over the zero payload: the reset, then the update. -/
theorem leftFirst (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : isFirst i) (hc1 : ¬isLast i)
    (x0 : Vec F S2048x2048 .f32) (x1 : Vec F S2048x32 .f32) (x2 : Vec F S32x32 .f32)
    (f : a9.view.ty.Contents (Elt F)) :
    a9.view.read (Elt F) (a9.view.writes (Elt F) f (runFirst c i a2 h2 a3 h3 a4 h4 a5 h5 a6 h6 a7 h7 a8 h8 a9 h9 hc0 hc1 x0 x1 x2).1)
      = k0_pay2 i x1 x2 x0 (k0_pay1 (F := F)) := by
  unfold runFirst; dsimp only
  rw [read_writes_whole _ _ zeros2]
  sl_unfold_words
  simp only [View.readAt_eq_ld, h2.read_unread, h3.read_unread, h4.read_unread]
  rw [View.ld_unit_zero zeros2, View.ld_unit_zero zeros2, View.ld_unit_zero zeros2, View.readCov_unit_zero _ zeros2]

/-- A last point leaves the accumulator as a middle point does, -/
theorem leftLastAcc (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : ¬isFirst i) (hc1 : isLast i)
    (x0 : Vec F S2048x2048 .f32) (x1 : Vec F S2048x32 .f32) (x2 : Vec F S32x32 .f32) (x3 : Vec F S1x32 .f32) (x4 : Vec F S32x16 .f32) (x5 : Vec F S1x16 .f32) (xs : Vec F S2048x32 .f32)
    (f : a9.view.ty.Contents (Elt F)) :
    a9.view.read (Elt F) (a9.view.writes (Elt F) f (runLast c i a2 h2 a3 h3 a4 h4 a5 h5 a6 h6 a7 h7 a8 h8 a9 h9 hc0 hc1 x0 x1 x2 x3 x4 x5 xs).2.1)
      = k0_pay2 i x1 x2 x0 xs := by
  unfold runLast; dsimp only
  sl_unfold_words
  rw [read_writes_whole _ _ zeros2]
  simp only [View.readAt_eq_ld, h2.read_unread, h3.read_unread, h4.read_unread, h9.read_unread]
  rw [View.ld_unit_zero zeros2, View.ld_unit_zero zeros2, View.ld_unit_zero zeros2, View.ld_unit_zero zeros2]

/-- and the output buffer at the output payload of that accumulator, the two bias rows and the second weight matrix. -/
theorem leftLastOut (c : Dev nD) (i : grid0.Coords) (a2 : Memref sig .tc .vmem S2048x2048 .f32) (h2 : a2.IsWhole) (a3 : Memref sig .tc .vmem S2048x32 .f32) (h3 : a3.IsWhole) (a4 : Memref sig .tc .vmem S32x32 .f32) (h4 : a4.IsWhole) (a5 : Memref sig .tc .vmem S1x32 .f32) (h5 : a5.IsWhole) (a6 : Memref sig .tc .vmem S32x16 .f32) (h6 : a6.IsWhole) (a7 : Memref sig .tc .vmem S1x16 .f32) (h7 : a7.IsWhole) (a8 : Memref sig .tc .vmem S2048x16 .f32) (h8 : a8.IsWhole) (a9 : Memref sig .tc .vmem S2048x32 .f32) (h9 : a9.IsWhole) (hc0 : ¬isFirst i) (hc1 : isLast i)
    (x0 : Vec F S2048x2048 .f32) (x1 : Vec F S2048x32 .f32) (x2 : Vec F S32x32 .f32) (x3 : Vec F S1x32 .f32) (x4 : Vec F S32x16 .f32) (x5 : Vec F S1x16 .f32) (xs : Vec F S2048x32 .f32)
    (f : a8.view.ty.Contents (Elt F)) :
    a8.view.read (Elt F) (a8.view.writes (Elt F) f (runLast c i a2 h2 a3 h3 a4 h4 a5 h5 a6 h6 a7 h7 a8 h8 a9 h9 hc0 hc1 x0 x1 x2 x3 x4 x5 xs).1)
      = k0_pay3 (k0_pay2 i x1 x2 x0 xs) x3 x4 x5 := by
  unfold runLast; dsimp only
  rw [read_writes_whole _ _ zeros2]
  sl_unfold_words
  simp only [View.readAt_eq_ld, h2.read_unread, h3.read_unread, h4.read_unread, h5.read_unread, h6.read_unread, h7.read_unread, h9.read_unread]
  rw [View.readCov_unit_zero _ zeros2]
  rw [View.ld_unit_zero zeros2, View.ld_unit_zero zeros2, View.ld_unit_zero zeros2, View.ld_unit_zero zeros2, View.ld_unit_zero zeros2, View.ld_unit_zero zeros2, View.ld_unit_zero zeros2]

end Cert.KernelIdeal.Hand

end
-- ==== Proof.LibBlockSums.lean ====
/-
  A finite sum cut into blocks that overhang it.

  A sum over N terms, with N at most a * b, is the sum over a blocks of b consecutive positions each, the term at a
  position past N read as zero: what a kernel computes when it walks an axis of extent N in a tiles of size b, the last
  tile overhanging the axis, and masks the overhang to zero. Over any additive commutative monoid, so on the extended
  reals with no finiteness assumed.
-/
import Mathlib.Algebra.BigOperators.Fin
import Mathlib.Algebra.BigOperators.Intervals

open scoped BigOperators

namespace Cert.BlockSums

/-- A sum over a * b consecutive naturals is the sum over a blocks of b: position j * b + k in block j. -/
theorem sum_range_blocks {M : Type} [AddCommMonoid M] (g : ℕ → M) (b : ℕ) :
    ∀ a : ℕ, ∑ n ∈ Finset.range (a * b), g n = ∑ j ∈ Finset.range a, ∑ k ∈ Finset.range b, g (j * b + k)
  | 0 => by simp
  | a + 1 => by rw [Nat.succ_mul, Finset.sum_range_add, sum_range_blocks g b a, Finset.sum_range_succ]

/-- A sum over Fin N, with N ≤ a * b, is the sum over a blocks of b positions, a position past N contributing zero. -/
theorem sum_fin_clipped_blocks {M : Type} [AddCommMonoid M] {N : ℕ} (f : Fin N → M) (a b : ℕ) (hN : N ≤ a * b) :
    ∑ k : Fin N, f k
      = ∑ j ∈ Finset.range a, ∑ k' : Fin b, (if h : j * b + k'.val < N then f ⟨j * b + k'.val, h⟩ else 0) := by
  have h1 : ∑ k : Fin N, f k = ∑ n ∈ Finset.range N, (if h : n < N then f ⟨n, h⟩ else 0) := by
    rw [Finset.sum_range]; refine Finset.sum_congr rfl fun k _ => ?_
    rw [dif_pos k.isLt]
  have h2 : ∑ n ∈ Finset.range (a * b), (if h : n < N then f ⟨n, h⟩ else 0)
      = ∑ n ∈ Finset.range N, (if h : n < N then f ⟨n, h⟩ else 0) := by
    obtain ⟨e, he⟩ := Nat.exists_eq_add_of_le hN
    rw [he, Finset.sum_range_add,
      Finset.sum_eq_zero (s := Finset.range e) (fun n _ => by rw [dif_neg (by omega)]), add_zero]
  rw [h1, ← h2, sum_range_blocks]
  exact Finset.sum_congr rfl fun j _ =>
    Finset.sum_range (fun k => if h : j * b + k < N then f ⟨j * b + k, h⟩ else 0)

end Cert.BlockSums
-- ==== Proof.Spec.lean ====
/-
  The function both programs compute, and the law that joins them.

  With A the 12000 x 12000 adjacency matrix, X the 12000 x 32 features, W1 and b1 the graph layer's weights and bias,
  W2 and b2 the classifier's, the result at (r, c) is

      sum over h of ( (sum over k of A r k * (sum over d of X k d * W1 d h)) + b1 h ) * W2 h c   +   b2 c .

  The reference computes the inner sum over all 12000 columns k at once. The kernel walks the columns in six blocks of
  2048 (the last one overhanging the matrix by 288 columns) and adds one block's sum to an accumulator per step; in the
  overhang it multiplies whatever the adjacency buffer holds there by a feature row it has set to zero. On the extended
  reals zero times anything is zero and a finite sum may be regrouped at will, so the six block sums add up to the sum
  over all columns: no finiteness of any entry is used.
-/
import proofs.«118109_j22737556865408_2_alg».proof.Proof.LibBlockSums
import Idealize.ShloMosaic.Lib.ValueIdx
import Idealize.ShloMosaic.PureOps.Ideal.Laws

noncomputable section

open scoped BigOperators

namespace Cert.GcnSpec

open Idealize.ShloMosaic Idealize.ShloMosaic.ValueIdx

variable (A : Fin 12000 → Fin 12000 → EReal) (X : Fin 12000 → Fin 32 → EReal) (W1 : Fin 32 → Fin 32 → EReal)
  (b1 : Fin 32 → EReal) (W2 : Fin 32 → Fin 16 → EReal) (b2 : Fin 16 → EReal)

/-- The features through the first weight matrix. -/
def support (k : Fin 12000) (h : Fin 32) : EReal := ∑ d : Fin 32, X k d * W1 d h

/-- The adjacency aggregation: row r of A against column h of the support. -/
def agg (r : Fin 12000) (h : Fin 32) : EReal := ∑ k : Fin 12000, A r k * support X W1 k h

/-- The result. -/
def logits (r : Fin 12000) (c : Fin 16) : EReal := (∑ h : Fin 32, (agg A X W1 r h + b1 h) * W2 h c) + b2 c

/-- Column n's term of the aggregation, zero past the matrix. -/
def colTerm (r : Fin 12000) (h : Fin 32) (n : ℕ) : EReal :=
  if hn : n < 12000 then A r ⟨n, hn⟩ * support X W1 ⟨n, hn⟩ h else 0

/-- Column block j's sum: 2048 columns from j * 2048 on. -/
def blockSum (r : Fin 12000) (j : ℕ) (h : Fin 32) : EReal := ∑ k' : Fin 2048, colTerm A X W1 r h (j * 2048 + k'.val)

/-- The first n column blocks' sums added up. -/
def partialAgg (r : Fin 12000) (n : ℕ) (h : Fin 32) : EReal := ∑ j ∈ Finset.range n, blockSum A X W1 r j h

/-- Six blocks of 2048 columns, the last 288 of them past the matrix and contributing zero, are all 12000 columns. -/
theorem partialAgg_six (r : Fin 12000) (h : Fin 32) : partialAgg A X W1 r 6 h = agg A X W1 r h := by
  unfold partialAgg blockSum agg colTerm
  exact (Cert.BlockSums.sum_fin_clipped_blocks (fun k => A r k * support X W1 k h) 6 2048 (by norm_num)).symm

theorem partialAgg_zero (r : Fin 12000) (h : Fin 32) : partialAgg A X W1 r 0 h = 0 := by
  unfold partialAgg; rw [Finset.range_zero, Finset.sum_empty]

/-- ONE STEP OF THE ACCUMULATION. At row block i and column block j, the adjacency buffer X0 holds the matrix's entries
    wherever row and column are inside the matrix (anything elsewhere), the feature buffer X1 the features' rows inside the
    matrix, X2 the first weight matrix, and the accumulator Xs the first j blocks' sums on the rows inside the matrix.
    Then the accumulator plus the product of X0 with (the feature rows, those past the matrix replaced by zero, times X2)
    is, on the rows inside the matrix, the first j + 1 blocks' sums. -/
theorem step (i j : ℕ) (X0 : (⟨2, ![2048, 2048]⟩ : Shape).Idx → EReal) (X1 : (⟨2, ![2048, 32]⟩ : Shape).Idx → EReal)
    (X2 : (⟨2, ![32, 32]⟩ : Shape).Idx → EReal) (Xs : (⟨2, ![2048, 32]⟩ : Shape).Idx → EReal)
    (hX0 : ∀ (r k' : Fin 2048) (hr : i * 2048 + r.val < 12000) (hk : j * 2048 + k'.val < 12000),
      X0 (ix2 r k') = A ⟨i * 2048 + r.val, hr⟩ ⟨j * 2048 + k'.val, hk⟩)
    (hX1 : ∀ (k' : Fin 2048) (d : Fin 32) (hk : j * 2048 + k'.val < 12000), X1 (ix2 k' d) = X ⟨j * 2048 + k'.val, hk⟩ d)
    (hX2 : ∀ d h : Fin 32, X2 (ix2 d h) = W1 d h)
    (r : Fin 2048) (h : Fin 32) (hr : i * 2048 + r.val < 12000)
    (hXs : Xs (ix2 r h) = partialAgg A X W1 ⟨i * 2048 + r.val, hr⟩ j h) :
    Xs (ix2 r h) + ∑ k' : Fin 2048, X0 (ix2 r k') * ∑ d : Fin 32, (if k'.val + j * 2048 < 12000 then X1 (ix2 k' d) else 0) * X2 (ix2 d h)
      = partialAgg A X W1 ⟨i * 2048 + r.val, hr⟩ (j + 1) h := by
  rw [hXs]
  unfold partialAgg
  rw [Finset.sum_range_succ]
  congr 1
  unfold blockSum
  refine Finset.sum_congr rfl fun k' _ => ?_
  unfold colTerm
  by_cases hk : j * 2048 + k'.val < 12000
  · rw [dif_pos hk, hX0 r k' hr hk]
    congr 1
    unfold support
    refine Finset.sum_congr rfl fun d _ => ?_
    rw [if_pos (by omega), hX1 k' d hk, hX2]
  · rw [dif_neg hk]
    have hz : ∑ d : Fin 32, (if k'.val + j * 2048 < 12000 then X1 (ix2 k' d) else 0) * X2 (ix2 d h) = 0 :=
      Finset.sum_eq_zero fun d _ => by rw [if_neg (by omega), zero_mul]
    rw [hz, mul_zero]

/-- THE LAST STEP. With the accumulator Xa at all six blocks' sums on the rows inside the matrix, the bias rows and the second
    weight matrix in their buffers, the output payload's formula is the result on those rows. -/
theorem finish (i : ℕ) (Xa : (⟨2, ![2048, 32]⟩ : Shape).Idx → EReal) (X3 : (⟨2, ![1, 32]⟩ : Shape).Idx → EReal)
    (X4 : (⟨2, ![32, 16]⟩ : Shape).Idx → EReal) (X5 : (⟨2, ![1, 16]⟩ : Shape).Idx → EReal)
    (hX3 : ∀ h : Fin 32, X3 (ix2 0 h) = b1 h) (hX4 : ∀ (h : Fin 32) (c : Fin 16), X4 (ix2 h c) = W2 h c)
    (hX5 : ∀ c : Fin 16, X5 (ix2 0 c) = b2 c)
    (r : Fin 2048) (c : Fin 16) (hr : i * 2048 + r.val < 12000)
    (hXa : ∀ h : Fin 32, Xa (ix2 r h) = partialAgg A X W1 ⟨i * 2048 + r.val, hr⟩ 6 h) :
    (∑ h : Fin 32, (Xa (ix2 r h) + X3 (ix2 0 h)) * X4 (ix2 h c)) + X5 (ix2 0 c)
      = logits A X W1 b1 W2 b2 ⟨i * 2048 + r.val, hr⟩ c := by
  unfold logits
  rw [hX5]
  congr 1
  refine Finset.sum_congr rfl fun h _ => ?_
  rw [hXa h, partialAgg_six, hX3, hX4]

end Cert.GcnSpec

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.IdealPay.lean ====
/-
  The body's three payloads read at an entry, on the extended reals.

  There a change of float format is the identity, each of the three matrix products onto a zero array is a plain sum
  of products over the contracted axis, and the integer mask of the feature rows — row number plus 2048 times the
  column-block index, compared with 12000 as 32-bit signed words — is the comparison of natural numbers, since for a
  row below 2048 and a block index below six nothing wraps.
-/
import proofs.«118109_j22737556865408_2_alg».proof.Proof.Gen.KernelIdeal.Skeleton
import proofs.«118109_j22737556865408_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- The mask's word at feature row k of column block j is one exactly when k + 2048 j is below 12000. -/
theorem mask_iff (k j : ℕ) (hk : k < 2048) (hj : j < 6) :
    IntOp.cmpi .slt (IntOp.addi (BitVec.ofNat 32 k) (Scalar.muli (BitVec.ofNat 32 j) 2048#32)) 12000#32 = 1#1 ↔ k + j * 2048 < 12000 := by
  have hn : (BitVec.ofNat 32 k + BitVec.ofNat 32 j * 2048#32).toNat = k + j * 2048 := by
    simp only [BitVec.toNat_add, BitVec.toNat_mul, BitVec.toNat_ofNat]
    omega
  have hs : (BitVec.ofNat 32 k + BitVec.ofNat 32 j * 2048#32).slt 12000#32 = decide (k + j * 2048 < 12000) := by
    rw [BitVec.slt_eq_decide, BitVec.toInt_eq_toNat_of_lt (by rw [hn]; omega), hn]
    simp
    omega
  show BitVec.ofBool ((BitVec.ofNat 32 k + BitVec.ofNat 32 j * 2048#32).slt 12000#32) = 1#1 ↔ _
  rw [hs]
  by_cases h : k + j * 2048 < 12000
  · simp [h]
  · simp [h]

/-- The reset payload is zero everywhere. -/
theorem pay1_apply (j : S2048x32.Idx) : k0_pay1 (F := Ideal) j = 0 := by
  unfold k0_pay1
  rw [shapeCast_self]
  show Ideal.ofBits .f32 0x00000000#32 = 0
  exact Ideal.ofBits_zero_f32

/-- The update payload at (r, h): the accumulator's entry plus row r of the adjacency buffer against column h of the
    feature buffer — its rows past row 12000 of the features replaced by zero — times the first weight matrix. -/
theorem pay2_apply (i : grid0.Coords) (X1 : Vec Ideal S2048x32 .f32) (X2 : Vec Ideal S32x32 .f32) (X0 : Vec Ideal S2048x2048 .f32)
    (Xs : Vec Ideal S2048x32 .f32) (r : Fin 2048) (h : Fin 32) :
    k0_pay2 (F := Ideal) i X1 X2 X0 Xs (ix2 r h)
      = Xs (ix2 r h) + ∑ k' : Fin 2048, X0 (ix2 r k') * ∑ d : Fin 32, (if k'.val + (i 1).val * 2048 < 12000 then X1 (ix2 k' d) else 0) * X2 (ix2 d h) := by
  unfold k0_pay2
  dsimp only
  rw [shapeCast_self]
  show Xs (ix2 r h) + FloatOps.matmul (F := Ideal) (Cert.PlainMatmul.dims dot_S2048x2048_S2048x32_S2048x32_1_0_0_1_n_n_wf) none _ _ (constant (F := Ideal) S2048x32 .f32 0x00000000#32) (ix2 r h) = _
  rw [Cert.PlainMatmul.zero_acc_apply]
  congr 1
  refine Finset.sum_congr rfl fun k' _ => ?_
  show X0 (ix2 r k') * FloatOps.matmul (F := Ideal) (Cert.PlainMatmul.dims dot_S2048x32_S32x32_S2048x32_1_0_0_1_n_n_wf) none _ _ (constant (F := Ideal) S2048x32 .f32 0x00000000#32) (ix2 k' h) = _
  rw [Cert.PlainMatmul.zero_acc_apply]
  congr 1
  refine Finset.sum_congr rfl fun d _ => ?_
  show Scalar.select (IntOp.cmpi .slt (IntOp.addi (iota .tc S2048x32 32 [0] iota_S2048x32_d0_w32 (ix2 k' d)) (Scalar.muli (BitVec.ofNat 32 (i 1).val) 2048#32)) 12000#32) (X1 (ix2 k' d)) (Scalar.ofBits (F := Ideal) .f32 0x00000000#32) * X2 (ix2 d h) = _
  rw [iota_single_apply]
  show Scalar.select (IntOp.cmpi .slt (IntOp.addi (BitVec.ofNat 32 k'.val) (Scalar.muli (BitVec.ofNat 32 (i 1).val) 2048#32)) 12000#32) (X1 (ix2 k' d)) (Ideal.ofBits .f32 0x00000000#32) * X2 (ix2 d h) = _
  rw [Ideal.ofBits_zero_f32]
  congr 1
  unfold Scalar.select
  by_cases hm : k'.val + (i 1).val * 2048 < 12000
  · rw [if_pos hm]; exact if_pos ((mask_iff k'.val (i 1).val k'.isLt (i 1).isLt).mpr hm)
  · rw [if_neg hm]; exact if_neg (fun e => hm ((mask_iff k'.val (i 1).val k'.isLt (i 1).isLt).mp e))

/-- The output payload at (r, q): row r of the accumulator plus the first bias, against column q of the second weight
    matrix, plus the second bias. -/
theorem pay3_apply (Xa : Vec Ideal S2048x32 .f32) (X3 : Vec Ideal S1x32 .f32) (X4 : Vec Ideal S32x16 .f32) (X5 : Vec Ideal S1x16 .f32)
    (r : Fin 2048) (q : Fin 16) :
    k0_pay3 (F := Ideal) Xa X3 X4 X5 (ix2 r q)
      = (∑ h : Fin 32, (Xa (ix2 r h) + X3 (ix2 0 h)) * X4 (ix2 h q)) + X5 (ix2 0 q) := by
  unfold k0_pay3
  (try dsimp only)
  rw [shapeCast_self, shapeCast_self]
  show FloatOps.matmul (F := Ideal) (Cert.PlainMatmul.dims dot_S2048x32_S32x16_S2048x16_1_0_0_1_n_n_wf) none _ _ (constant (F := Ideal) S2048x16 .f32 0x00000000#32) (ix2 r q)
      + broadcastTo S2048x16 X5 broadcasts_S1x16_S2048x16 (ix2 r q) = _
  rw [Cert.PlainMatmul.zero_acc_apply]
  rw [broadcastTo_apply X5 broadcasts_S1x16_S2048x16 (ix2 r q) (ix2 0 q) (fun a => by
    match a with
    | ⟨0, _⟩ => rfl
    | ⟨1, _⟩ => rfl)]
  congr 1
  refine Finset.sum_congr rfl fun h _ => ?_
  show (Xa (ix2 r h) + broadcastTo S2048x32 X3 broadcasts_S1x32_S2048x32 (ix2 r h)) * X4 (ix2 h q) = _
  rw [broadcastTo_apply X3 broadcasts_S1x32_S2048x32 (ix2 r h) (ix2 0 h) (fun a => by
    match a with
    | ⟨0, _⟩ => rfl
    | ⟨1, _⟩ => rfl)]

end Cert.KernelIdeal.Pay

end
-- ==== Proof.IdealBlocks.lean ====
/-
  What the body's buffers hold, entry by entry, and the accumulator's invariant.

  At grid point t the row block is t / 6 and the column block t % 6. The adjacency buffer holds, at (r, k) with
  both 2048 (t / 6) + r and 2048 (t % 6) + k inside the matrix, that entry of the matrix; the feature buffer the
  features' row 2048 (t % 6) + k where that is inside; the four small buffers their whole arrays. Past the arrays' ends
  the two clipped buffers hold anything. The invariant: after point t the accumulator holds, on the rows inside the
  matrix, the sums of the column blocks 0 .. t % 6 of row block t / 6. It is set up at a row's first point from the
  zero payload, kept by every later point (one step of the accumulation), and at the row's last point it makes the
  output payload, on the rows inside the matrix, the block of the result.
-/
import proofs.«118109_j22737556865408_2_alg».proof.Proof.Gen.KernelIdeal.Frame
import proofs.«118109_j22737556865408_2_alg».proof.Proof.Spec
import proofs.«118109_j22737556865408_2_alg».proof.Proof.IdealPay

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The grid: which block each point reads, and how much of it lies inside the array -/

theorem coords_1 : ∀ t : Fin cfg0.N, (grid0.coords t 1).val = t.val % 6 :=
  (by decide +kernel : ∀ t : Fin grid0.N, (grid0.coords t 1).val = t.val % 6)
theorem idx0 : ∀ t : Fin cfg0.N, win0_0.index t 0 = t.val / 6 ∧ win0_0.index t 1 = t.val % 6 :=
  (by decide +kernel : ∀ t : Fin grid0.N, win0_0.index t 0 = t.val / 6 ∧ win0_0.index t 1 = t.val % 6)
theorem xs0 : ∀ t : Fin cfg0.N, win0_0.xsize (grid0.coords t) 0 = (if t.val / 6 = 5 then 1760 else 2048)
    ∧ win0_0.xsize (grid0.coords t) 1 = (if t.val % 6 = 5 then 1760 else 2048) :=
  (by decide +kernel : ∀ t : Fin grid0.N, win0_0.xsize (grid0.coords t) 0 = (if t.val / 6 = 5 then 1760 else 2048)
    ∧ win0_0.xsize (grid0.coords t) 1 = (if t.val % 6 = 5 then 1760 else 2048))
theorem idx1 : ∀ t : Fin cfg0.N, win0_1.index t 0 = t.val % 6 ∧ win0_1.index t 1 = 0 :=
  (by decide +kernel : ∀ t : Fin grid0.N, win0_1.index t 0 = t.val % 6 ∧ win0_1.index t 1 = 0)
theorem xs1 : ∀ t : Fin cfg0.N, win0_1.xsize (grid0.coords t) 0 = (if t.val % 6 = 5 then 1760 else 2048)
    ∧ win0_1.xsize (grid0.coords t) 1 = 32 :=
  (by decide +kernel : ∀ t : Fin grid0.N, win0_1.xsize (grid0.coords t) 0 = (if t.val % 6 = 5 then 1760 else 2048)
    ∧ win0_1.xsize (grid0.coords t) 1 = 32)
theorem idx6 : ∀ t : Fin cfg0.N, win0_6.index t 0 = t.val / 6 ∧ win0_6.index t 1 = 0 :=
  (by decide +kernel : ∀ t : Fin grid0.N, win0_6.index t 0 = t.val / 6 ∧ win0_6.index t 1 = 0)
theorem xs6 : ∀ t : Fin cfg0.N, win0_6.xsize (grid0.coords t) 0 = (if t.val / 6 = 5 then 1760 else 2048)
    ∧ win0_6.xsize (grid0.coords t) 1 = 16 :=
  (by decide +kernel : ∀ t : Fin grid0.N, win0_6.xsize (grid0.coords t) 0 = (if t.val / 6 = 5 then 1760 else 2048)
    ∧ win0_6.xsize (grid0.coords t) 1 = 16)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)

/-- A filled block at an index of its moved part is the filling there. -/
theorem fill_apply_of_lt {sg : RefSig} {G : Pipeline.Grid} (w : Pipeline.Window sg G) {α : Type} (i : G.Coords)
    (d : w.block.Idx → α) (g : (w.xblock i).Idx → α) (j : w.block.Idx) (hj : ∀ a, (j a).val < w.xsize i a) :
    w.fill i d g j = g (fun a => ⟨(j a).val, hj a⟩) := by
  unfold Pipeline.Window.fill; rw [dif_pos ((w.moved_iff i j).mpr hj)]

/-! ## The arguments as the region finds them, by coordinates -/

abbrev argA (c : Dev nD) : Fin 12000 → Fin 12000 → EReal := fun r k => (V m c main_arg1 : S12000x12000.Idx → EReal) (ix2 r k)
abbrev argX (c : Dev nD) : Fin 12000 → Fin 32 → EReal := fun k d => (V m c main_arg0 : S12000x32.Idx → EReal) (ix2 k d)
abbrev argW1 (c : Dev nD) : Fin 32 → Fin 32 → EReal := fun d h => (V m c main_arg2 : S32x32.Idx → EReal) (ix2 d h)
abbrev argB1 (c : Dev nD) : Fin 32 → EReal := fun h => (V m c main_v0 : S1x32.Idx → EReal) (ix2 0 h)
abbrev argW2 (c : Dev nD) : Fin 32 → Fin 16 → EReal := fun h q => (V m c main_arg4 : S32x16.Idx → EReal) (ix2 h q)
abbrev argB2 (c : Dev nD) : Fin 16 → EReal := fun q => (V m c main_v1 : S1x16.Idx → EReal) (ix2 0 q)

/-- The result array: the specification at every entry. -/
def Gm (c : Dev nD) : Buf (Elt Ideal) ((c : Thread nD τ).loc main_v2) :=
  ((fun o => Cert.GcnSpec.logits (argA m c) (argX m c) (argW1 m c) (argB1 m c) (argW2 m c) (argB2 m c) (o 0) (o 1)) : S12000x16.Idx → EReal)

theorem Gm_apply (c : Dev nD) (r : Fin 12000) (q : Fin 16) :
    (Gm m c : S12000x16.Idx → EReal) (ix2 r q) = Cert.GcnSpec.logits (argA m c) (argX m c) (argW1 m c) (argB1 m c) (argW2 m c) (argB2 m c) r q := rfl

/-! ## The buffers, entry by entry -/

theorem read0 (c : Dev nD) (t : Fin cfg0.N) (d0 : S2048x2048.Idx → EReal) (r k' : Fin 2048)
    (hr : t.val / 6 * 2048 + r.val < 12000) (hk : t.val % 6 * 2048 + k'.val < 12000) :
    win0_0.fill (grid0.coords t) d0 (iblk m c 0 t) (ix2 r k') = argA m c ⟨_, hr⟩ ⟨_, hk⟩ := by
  have hlt : ∀ a, ((ix2 r k' : S2048x2048.Idx) a).val < win0_0.xsize (grid0.coords t) a := fun a => by
    match a with
    | ⟨0, _⟩ => show r.val < win0_0.xsize (grid0.coords t) 0; rw [(xs0 t).1]; split <;> omega
    | ⟨1, _⟩ => show k'.val < win0_0.xsize (grid0.coords t) 1; rw [(xs0 t).2]; split <;> omega
  rw [fill_apply_of_lt win0_0 _ _ _ _ hlt]
  show V m c main_arg1 (((cfg0.win 0).blk t).view.emb _) = _
  refine congrArg _ (funext fun a => Fin.ext ?_)
  match a with
  | ⟨0, _⟩ => show win0_0.index t 0 * 2048 + 1 * r.val = t.val / 6 * 2048 + r.val; rw [(idx0 t).1]; omega
  | ⟨1, _⟩ => show win0_0.index t 1 * 2048 + 1 * k'.val = t.val % 6 * 2048 + k'.val; rw [(idx0 t).2]; omega

theorem read1 (c : Dev nD) (t : Fin cfg0.N) (d1 : S2048x32.Idx → EReal) (k' : Fin 2048) (d : Fin 32)
    (hk : t.val % 6 * 2048 + k'.val < 12000) :
    win0_1.fill (grid0.coords t) d1 (iblk m c 1 t) (ix2 k' d) = argX m c ⟨_, hk⟩ d := by
  have hlt : ∀ a, ((ix2 k' d : S2048x32.Idx) a).val < win0_1.xsize (grid0.coords t) a := fun a => by
    match a with
    | ⟨0, _⟩ => show k'.val < win0_1.xsize (grid0.coords t) 0; rw [(xs1 t).1]; split <;> omega
    | ⟨1, _⟩ => show d.val < win0_1.xsize (grid0.coords t) 1; rw [(xs1 t).2]; exact d.isLt
  rw [fill_apply_of_lt win0_1 _ _ _ _ hlt]
  show V m c main_arg0 (((cfg0.win 1).blk t).view.emb _) = _
  refine congrArg _ (funext fun a => Fin.ext ?_)
  match a with
  | ⟨0, _⟩ => show win0_1.index t 0 * 2048 + 1 * k'.val = t.val % 6 * 2048 + k'.val; rw [(idx1 t).1]; omega
  | ⟨1, _⟩ => show win0_1.index t 1 * 32 + 1 * d.val = d.val; rw [(idx1 t).2]; omega

theorem read2 (c : Dev nD) (t : Fin cfg0.N) (d h : Fin 32) :
    (iblk m c 2 t : S32x32.Idx → EReal) (ix2 d h) = argW1 m c d h := by
  show V m c main_arg2 (((cfg0.win 2).blk t).view.emb _) = _
  refine congrArg _ (funext fun a => Fin.ext ?_)
  match a with
  | ⟨0, _⟩ => show win0_2.index t 0 * 32 + 1 * d.val = d.val; rw [(idx2 t).1]; omega
  | ⟨1, _⟩ => show win0_2.index t 1 * 32 + 1 * h.val = h.val; rw [(idx2 t).2]; omega

theorem read3 (c : Dev nD) (t : Fin cfg0.N) (h : Fin 32) :
    (iblk m c 3 t : S1x32.Idx → EReal) (ix2 0 h) = argB1 m c h := by
  show V m c main_v0 (((cfg0.win 3).blk t).view.emb _) = _
  refine congrArg _ (funext fun a => Fin.ext ?_)
  match a with
  | ⟨0, _⟩ => show win0_3.index t 0 * 1 + 1 * 0 = 0; rw [(idx3 t).1]
  | ⟨1, _⟩ => show win0_3.index t 1 * 32 + 1 * h.val = h.val; rw [(idx3 t).2]; omega

theorem read4 (c : Dev nD) (t : Fin cfg0.N) (h : Fin 32) (q : Fin 16) :
    (iblk m c 4 t : S32x16.Idx → EReal) (ix2 h q) = argW2 m c h q := by
  show V m c main_arg4 (((cfg0.win 4).blk t).view.emb _) = _
  refine congrArg _ (funext fun a => Fin.ext ?_)
  match a with
  | ⟨0, _⟩ => show win0_4.index t 0 * 32 + 1 * h.val = h.val; rw [(idx4 t).1]; omega
  | ⟨1, _⟩ => show win0_4.index t 1 * 16 + 1 * q.val = q.val; rw [(idx4 t).2]; omega

theorem read5 (c : Dev nD) (t : Fin cfg0.N) (q : Fin 16) :
    (iblk m c 5 t : S1x16.Idx → EReal) (ix2 0 q) = argB2 m c q := by
  show V m c main_v1 (((cfg0.win 5).blk t).view.emb _) = _
  refine congrArg _ (funext fun a => Fin.ext ?_)
  match a with
  | ⟨0, _⟩ => show win0_5.index t 0 * 1 + 1 * 0 = 0; rw [(idx5 t).1]
  | ⟨1, _⟩ => show win0_5.index t 1 * 16 + 1 * q.val = q.val; rw [(idx5 t).2]; omega

end Cert.KernelIdeal.Blocks

end
-- ==== Proof.IdealInv.lean ====
/-
  The accumulator's invariant: set up, kept, and used.

  After point t the accumulator holds, on the rows of row block t / 6 that lie inside the matrix, the sums of the
  column blocks 0 .. t % 6. A row's first point sets it up from the zero payload; every later point keeps it, by one
  step of the accumulation; and at the row's last point all six blocks are in, so the output payload is, on those
  rows, the block of the result.
-/
import proofs.«118109_j22737556865408_2_alg».proof.Proof.IdealBlocks

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- On the rows of row block i inside the matrix, the contents are the sum of the first n column blocks. -/
def AccUpTo (c : Dev nD) (i n : ℕ) (Xs : S2048x32.Idx → EReal) : Prop :=
  ∀ (r : Fin 2048) (h : Fin 32) (hr : i * 2048 + r.val < 12000),
    Xs (ix2 r h) = Cert.GcnSpec.partialAgg (argA m c) (argX m c) (argW1 m c) ⟨i * 2048 + r.val, hr⟩ n h

/-- After point p: the accumulator holds the column blocks up to p's, of p's row block. -/
def AccInv (c : Dev nD) (p : ℕ) (Xs : S2048x32.Idx → EReal) : Prop := AccUpTo m c (p / 6) (p % 6 + 1) Xs

/-- One point: from an accumulator holding the blocks before this point's, the update payload holds those and this one. -/
theorem acc_step (c : Dev nD) (t : Fin cfg0.N) (d0 : S2048x2048.Idx → EReal) (d1 : S2048x32.Idx → EReal) (Xs : S2048x32.Idx → EReal)
    (hXs : AccUpTo m c (t.val / 6) (t.val % 6) Xs) :
    AccInv m c t.val (k0_pay2 (F := Ideal) (grid0.coords t) (win0_1.fill (grid0.coords t) d1 (iblk m c 1 t)) (iblk m c 2 t) (win0_0.fill (grid0.coords t) d0 (iblk m c 0 t)) Xs) := by
  intro r h hr
  rw [Cert.KernelIdeal.Pay.pay2_apply, coords_1 t]
  exact Cert.GcnSpec.step (argA m c) (argX m c) (argW1 m c) (t.val / 6) (t.val % 6) _ _ _ Xs
    (fun r k' hr hk => read0 m c t d0 r k' hr hk) (fun k' d hk => read1 m c t d1 k' d hk) (fun d h => read2 m c t d h) r h hr (hXs r h hr)

/-- A row's first point, over the zero payload. -/
theorem acc_first (c : Dev nD) (t : Fin cfg0.N) (hf : t.val % 6 = 0) (d0 : S2048x2048.Idx → EReal) (d1 : S2048x32.Idx → EReal) :
    AccInv m c t.val (k0_pay2 (F := Ideal) (grid0.coords t) (win0_1.fill (grid0.coords t) d1 (iblk m c 1 t)) (iblk m c 2 t) (win0_0.fill (grid0.coords t) d0 (iblk m c 0 t)) (k0_pay1 (F := Ideal))) :=
  acc_step m c t d0 d1 _ (fun r h hr => by rw [Cert.KernelIdeal.Pay.pay1_apply, hf, Cert.GcnSpec.partialAgg_zero])

/-- A later point, over what the point before left. -/
theorem acc_next (c : Dev nD) (t : Fin cfg0.N) (hf : ¬ t.val % 6 = 0) (d0 : S2048x2048.Idx → EReal) (d1 : S2048x32.Idx → EReal)
    (Xs : S2048x32.Idx → EReal) (hX : AccInv m c (t.val - 1) Xs) :
    AccInv m c t.val (k0_pay2 (F := Ideal) (grid0.coords t) (win0_1.fill (grid0.coords t) d1 (iblk m c 1 t)) (iblk m c 2 t) (win0_0.fill (grid0.coords t) d0 (iblk m c 0 t)) Xs) := by
  have e1 : (t.val - 1) / 6 = t.val / 6 := by omega
  have e2 : (t.val - 1) % 6 + 1 = t.val % 6 := by omega
  unfold AccInv at hX
  rw [e1, e2] at hX
  exact acc_step m c t d0 d1 Xs hX

/-- The result's block at point t, read at an entry of its part inside the array. -/
theorem Gm_blk (c : Dev nD) (t : Fin cfg0.N) (y : (win0_6.xblock (grid0.coords t)).Idx)
    (hr : t.val / 6 * 2048 + (y 0).val < 12000) (hq : (y 1).val < 16) :
    (win0_6.blk t).view.read (Elt Ideal) (Gm m c) y
      = Cert.GcnSpec.logits (argA m c) (argX m c) (argW1 m c) (argB1 m c) (argW2 m c) (argB2 m c) ⟨t.val / 6 * 2048 + (y 0).val, hr⟩ ⟨(y 1).val, hq⟩ := by
  rw [← Gm_apply m c ⟨t.val / 6 * 2048 + (y 0).val, hr⟩ ⟨(y 1).val, hq⟩]
  show Gm m c (((cfg0.win 6).blk t).view.emb y) = _
  refine congrArg _ (funext fun a => Fin.ext ?_)
  match a with
  | ⟨0, _⟩ => show win0_6.index t 0 * 2048 + 1 * (y 0).val = t.val / 6 * 2048 + (y 0).val; rw [(idx6 t).1]; omega
  | ⟨1, _⟩ => show win0_6.index t 1 * 16 + 1 * (y 1).val = (y 1).val; rw [(idx6 t).2]; omega

/-- The moved part of an output block's contents, read at an entry. -/
theorem cut6_apply (t : Fin cfg0.N) (P : S2048x16.Idx → EReal) (y : (win0_6.xblock (grid0.coords t)).Idx)
    (hr : (y 0).val < 2048) (hq : (y 1).val < 16) :
    win0_6.cut (grid0.coords t) P y = P (ix2 (⟨(y 0).val, hr⟩ : Fin 2048) (⟨(y 1).val, hq⟩ : Fin 16)) := by
  show P (win0_6.xinj (grid0.coords t) y) = _
  refine congrArg P (funext fun a => Fin.ext ?_)
  match a with
  | ⟨0, _⟩ => rfl
  | ⟨1, _⟩ => rfl

set_option maxHeartbeats 800000 in
/-- A row's last point: the output payload, on the part of the block inside the result array, is the result's block. -/
theorem out_last (c : Dev nD) (t : Fin cfg0.N) (hl : t.val % 6 = 5) (d0 : S2048x2048.Idx → EReal) (d1 : S2048x32.Idx → EReal)
    (Xs : S2048x32.Idx → EReal) (hX : AccInv m c (t.val - 1) Xs) :
    win0_6.cut (grid0.coords t) (k0_pay3 (F := Ideal) (k0_pay2 (F := Ideal) (grid0.coords t) (win0_1.fill (grid0.coords t) d1 (iblk m c 1 t)) (iblk m c 2 t) (win0_0.fill (grid0.coords t) d0 (iblk m c 0 t)) Xs) (iblk m c 3 t) (iblk m c 4 t) (iblk m c 5 t))
      = (win0_6.blk t).view.read (Elt Ideal) (Gm m c) := by
  funext y
  have hN : t.val < 36 := lt_of_lt_of_eq t.isLt (show cfg0.N = 36 from N_0)
  have h0 : (y 0).val < win0_6.xsize (grid0.coords t) 0 := (y 0).isLt
  have h1 : (y 1).val < win0_6.xsize (grid0.coords t) 1 := (y 1).isLt
  rw [(xs6 t).1] at h0; rw [(xs6 t).2] at h1
  have hr0 : (y 0).val < 2048 := by split at h0 <;> omega
  have hr : t.val / 6 * 2048 + (y 0).val < 12000 := by split at h0 <;> omega
  rw [cut6_apply t _ y hr0 h1, Gm_blk m c t y hr h1, Cert.KernelIdeal.Pay.pay3_apply]
  exact Cert.GcnSpec.finish (argA m c) (argX m c) (argW1 m c) (argB1 m c) (argW2 m c) (argB2 m c) (t.val / 6) _ _ _ _
    (read3 m c t) (read4 m c t) (read5 m c t) ⟨(y 0).val, hr0⟩ ⟨(y 1).val, h1⟩ hr (fun h => by
      have h2 := acc_next m c t (by omega) d0 d1 Xs hX ⟨(y 0).val, hr0⟩ h hr
      rw [hl] at h2
      exact h2)

end Cert.KernelIdeal.Blocks

end
-- ==== Proof.IdealBody.lean ====
/-
  The idealized kernel's run, with the result array named.

  The proof data: the arrays as the region finds them; after the body each input's buffer at its block (the two
  clipped ones filled out past the array's end by a word nothing reads) and the output's at the result's block,
  likewise filled out; the invariant the accumulator at contents that, once a point has run, hold on the rows inside
  the matrix the sums of the column blocks so far. The output window is idle away from a row's last point: the body
  stores nothing into its buffer there and hands it back as found. At every point the body's run is the case's run,
  what it leaves is a payload of what it was handed, and the payloads' entries are the invariant's and the result's.
-/
import proofs.«118109_j22737556865408_2_alg».proof.Proof.IdealPieces
import proofs.«118109_j22737556865408_2_alg».proof.Proof.IdealInv
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the two conditions hold on the grid -/

/-- The point is first of its row of column blocks exactly when its number is a multiple of six; -/
theorem first_iff : ∀ t : Fin cfg0.N, isFirst (grid0.coords t) ↔ t.val % 6 = 0 :=
  (by decide +kernel : ∀ t : Fin grid0.N, isFirst (grid0.coords t) ↔ t.val % 6 = 0)
/-- last exactly when it is five more than one. -/
theorem last_iff : ∀ t : Fin cfg0.N, isLast (grid0.coords t) ↔ t.val % 6 = 5 :=
  (by decide +kernel : ∀ t : Fin grid0.N, isLast (grid0.coords t) ↔ t.val % 6 = 5)
/-- Away from a row's last point the output window is idle and its block is not written back; -/
theorem idle6 : ∀ t : Fin cfg0.N, ¬ t.val % 6 = 5 → cfg0.idle 6 (grid0.coords t) = true ∧ (cfg0.win 6).flush t = false :=
  (by decide +kernel : ∀ t : Fin grid0.N, ¬ t.val % 6 = 5 → cfg0.idle 6 (grid0.coords t) = true ∧ (cfg0.win 6).flush t = false)
/-- at it the window is live. -/
theorem live6 : ∀ t : Fin cfg0.N, t.val % 6 = 5 → cfg0.idle 6 (grid0.coords t) = false :=
  (by decide +kernel : ∀ t : Fin grid0.N, t.val % 6 = 5 → cfg0.idle 6 (grid0.coords t) = false)

/-- The accumulator: the kernel's one scratch buffer, whole. -/
abbrev accM : Memref sig .tc .vmem S2048x32 .f32 := Memref.whole cc0_scratch0

/-- What the region hands the body besides the windows: the accumulator at some contents and the generator's
    register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-- A buffer held at raw contents that read as X is owned at X. -/
theorem owns_of_read (c : Dev nD) {S : Shape} {e : EltTy} (a : Memref sig .tc .vmem S e) (f : a.view.ty.Contents (Elt F))
    (X : S.Idx → Elt F e) (h : a.view.read (Elt F) f = X) :
    (a.view.loc (c : Thread nD τ) ↦[a.view.set]{fullShare} f : sProp 𝕄) ⊢ owns (c : Thread nD τ) a fullShare X := by
  iintro H; unfold owns; iexists f; isplitr
  · ipureintro; exact h
  iexact H

section AtIdeal

open Cert.KernelIdeal.Blocks

local notation "𝕀" => MT nD τ sig Unit (Elt Ideal) ℕ (UR sig nD τ) ℕ

variable (m : (ℓ : Loc nD τ sig) → Buf (Elt Ideal) ℓ) (ρ : Dev nD → PrngReg)

/-! ## The proof data -/

/-- The invariant before point n: the accumulator at some contents — after a point has run, contents that hold the
    column blocks so far on the rows inside the matrix — and the generator's register at some state. -/
def PhiS (c : Dev nD) (n : ℕ) : sProp 𝕀 :=
  iprop(iprop(∃ Xs, owns (c : Thread nD τ) accM fullShare Xs ∗ ⌜n ≠ 0 → AccInv m c (n - 1) Xs⌝) ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => (0 : EReal)) ((win0_6.blk t).view.read (Elt Ideal) (Gm m c))
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = win0_0.fill (grid0.coords t) (fun _ => (0 : EReal)) (iblk m c 0 t) := by dsimp only [dats]
theorem after_1 (c : Dev nD) (t : Fin cfg0.N) : (dats m 0 c).after 1 t = win0_1.fill (grid0.coords t) (fun _ => (0 : EReal)) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = win0_6.fill (grid0.coords t) (fun _ => (0 : EReal)) ((win0_6.blk t).view.read (Elt Ideal) (Gm m c)) := by dsimp only [dats]

theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation, at a generic point -/

/-- What the body is called with at point t, -/
def bodyPre (c : Dev nD) (t : Fin cfg0.N) : sProp 𝕀 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕀 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t)

theorem leaves_0 (c : Dev nD) (t : Fin cfg0.N) : (dats m 0 c).leaves 0 t
    = iprop(∃ d, owns (c : Thread nD τ) (st0_0 t) fullShare (win0_0.fill (grid0.coords t) d (win0_0.cut (grid0.coords t) ((dats m 0 c).after 0 t)))) := rfl
theorem leaves_1 (c : Dev nD) (t : Fin cfg0.N) : (dats m 0 c).leaves 1 t
    = iprop(∃ d, owns (c : Thread nD τ) (st0_1 t) fullShare (win0_1.fill (grid0.coords t) d (win0_1.cut (grid0.coords t) ((dats m 0 c).after 1 t)))) := rfl
theorem leaves_2 (c : Dev nD) (t : Fin cfg0.N) : (dats m 0 c).leaves 2 t = owns (c : Thread nD τ) (st0_2 t) fullShare ((dats m 0 c).after 2 t) := rfl
theorem leaves_3 (c : Dev nD) (t : Fin cfg0.N) : (dats m 0 c).leaves 3 t = owns (c : Thread nD τ) (st0_3 t) fullShare ((dats m 0 c).after 3 t) := rfl
theorem leaves_4 (c : Dev nD) (t : Fin cfg0.N) : (dats m 0 c).leaves 4 t = owns (c : Thread nD τ) (st0_4 t) fullShare ((dats m 0 c).after 4 t) := rfl
theorem leaves_5 (c : Dev nD) (t : Fin cfg0.N) : (dats m 0 c).leaves 5 t = owns (c : Thread nD τ) (st0_5 t) fullShare ((dats m 0 c).after 5 t) := rfl
theorem leaves_6_live (c : Dev nD) (t : Fin cfg0.N) (hl : t.val % 6 = 5) : (dats m 0 c).leaves 6 t
    = iprop(∃ d, owns (c : Thread nD τ) (st0_6 t) fullShare (win0_6.fill (grid0.coords t) d (win0_6.cut (grid0.coords t) ((dats m 0 c).after 6 t)))) := by
  unfold Dat.leaves; rw [live6 t hl]

set_option maxHeartbeats 1600000 in
/-- The body at any point, by the point's case: the case's run applies; the accumulator comes back at the update payload
    of what the point was handed, which keeps the invariant; the inputs' buffers come back as found; the output's comes
    back as found away from a row's last point, and there at the output payload, which on the rows inside the result
    array is the result's block. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  rw [leaves_0, leaves_1, leaves_2, leaves_3, leaves_4, leaves_5]
  unfold PhiS
  have e0 : win0_0.cut (grid0.coords t) ((dats m 0 c).after 0 t) = iblk m c 0 t := by rw [after_0]; exact win0_0.cut_fill _ _ _
  have e1 : win0_1.cut (grid0.coords t) ((dats m 0 c).after 1 t) = iblk m c 1 t := by rw [after_1]; exact win0_1.cut_fill _ _ _
  iintro ⟨⟨⟨%Xs, HS, %hXs⟩, Hg⟩, Ho, ⟨%d0, H0⟩, ⟨%d1, H1⟩, ⟨%d2, H2⟩, ⟨%d3, H3⟩, ⟨%d4, H4⟩, ⟨%d5, H5⟩, ⟨%d6, H6⟩⟩
  by_cases hf : t.val % 6 = 0
  · have hl : ¬ t.val % 6 = 5 := by omega
    rw [Dat.leaves_idle (dats m 0 c) 6 t (idle6 t hl).1 (idle6 t hl).2]
    iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) ((first_iff t).mpr hf) (fun h => hl ((last_iff t).mp h)) (win0_0.fill (grid0.coords t) d0 (iblk m c 0 t)) (win0_1.fill (grid0.coords t) d1 (iblk m c 1 t)) (iblk m c 2 t)).2 Set.univ _)
    isplitl [H0]; · iexact H0
    isplitl [H1]; · iexact H1
    isplitl [H2]; · iexact H2
    isplitl [HS]; · iexists _; iexact HS
    iintro ⟨H0, H1, H2, ⟨%fs, HS⟩⟩
    isplitl [HS Hg]
    · isplitl [HS]
      · iexists (k0_pay2 (F := Ideal) (grid0.coords t) (win0_1.fill (grid0.coords t) d1 (iblk m c 1 t)) (iblk m c 2 t) (win0_0.fill (grid0.coords t) d0 (iblk m c 0 t)) (k0_pay1 (F := Ideal)))
        isplitl [HS]
        · iapply (owns_of_read c accM _ _ (leftFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) ((first_iff t).mpr hf) (fun h => hl ((last_iff t).mp h)) (win0_0.fill (grid0.coords t) d0 (iblk m c 0 t)) (win0_1.fill (grid0.coords t) d1 (iblk m c 1 t)) (iblk m c 2 t) fs)); iexact HS
        · ipureintro; intro _; rw [Nat.add_sub_cancel]; exact acc_first m c t hf d0 d1
      iexact Hg
    isplitl [Ho]; · iexact Ho
    isplitl [H0]
    · iexists d0; rw [e0]; try iexact H0
    isplitl [H1]
    · iexists d1; rw [e1]; try iexact H1
    isplitl [H2]; · rw [after_2]; try iexact H2
    isplitl [H3]; · rw [after_3]; try iexact H3
    isplitl [H4]; · rw [after_4]; try iexact H4
    isplitl [H5]; · rw [after_5]; try iexact H5
    iexists d6; iexact H6
  have hXs' : AccInv m c (t.val - 1) Xs := hXs (by omega)
  by_cases hl : t.val % 6 = 5
  · rw [leaves_6_live m c t hl]
    iapply ((runLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (fun h => hf ((first_iff t).mp h)) ((last_iff t).mpr hl) (win0_0.fill (grid0.coords t) d0 (iblk m c 0 t)) (win0_1.fill (grid0.coords t) d1 (iblk m c 1 t)) (iblk m c 2 t) (iblk m c 3 t) (iblk m c 4 t) (iblk m c 5 t) Xs).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%f6, H6⟩, ⟨%fs, HS⟩⟩
    isplitl [HS Hg]
    · isplitl [HS]
      · iexists (k0_pay2 (F := Ideal) (grid0.coords t) (win0_1.fill (grid0.coords t) d1 (iblk m c 1 t)) (iblk m c 2 t) (win0_0.fill (grid0.coords t) d0 (iblk m c 0 t)) Xs)
        isplitl [HS]
        · iapply (owns_of_read c accM _ _ (leftLastAcc c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (fun h => hf ((first_iff t).mp h)) ((last_iff t).mpr hl) (win0_0.fill (grid0.coords t) d0 (iblk m c 0 t)) (win0_1.fill (grid0.coords t) d1 (iblk m c 1 t)) (iblk m c 2 t) (iblk m c 3 t) (iblk m c 4 t) (iblk m c 5 t) Xs fs)); iexact HS
        · ipureintro; intro _; rw [Nat.add_sub_cancel]; exact acc_next m c t hf d0 d1 Xs hXs'
      iexact Hg
    isplitl [Ho]; · iexact Ho
    isplitl [H0]
    · iexists d0; rw [e0]; try iexact H0
    isplitl [H1]
    · iexists d1; rw [e1]; try iexact H1
    isplitl [H2]; · rw [after_2]; try iexact H2
    isplitl [H3]; · rw [after_3]; try iexact H3
    isplitl [H4]; · rw [after_4]; try iexact H4
    isplitl [H5]; · rw [after_5]; try iexact H5
    iexists (k0_pay3 (F := Ideal) (k0_pay2 (F := Ideal) (grid0.coords t) (win0_1.fill (grid0.coords t) d1 (iblk m c 1 t)) (iblk m c 2 t) (win0_0.fill (grid0.coords t) d0 (iblk m c 0 t)) Xs) (iblk m c 3 t) (iblk m c 4 t) (iblk m c 5 t))
    rw [Pipeline.Window.fill_congr_cut win0_6 (grid0.coords t)
      ((out_last m c t hl d0 d1 Xs hXs').trans (by rw [after_6]; exact (win0_6.cut_fill _ _ _).symm))]
    iapply (owns_of_read c (st0_6 t) _ _ (leftLastOut c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (fun h => hf ((first_iff t).mp h)) ((last_iff t).mpr hl) (win0_0.fill (grid0.coords t) d0 (iblk m c 0 t)) (win0_1.fill (grid0.coords t) d1 (iblk m c 1 t)) (iblk m c 2 t) (iblk m c 3 t) (iblk m c 4 t) (iblk m c 5 t) Xs f6)); iexact H6
  · rw [Dat.leaves_idle (dats m 0 c) 6 t (idle6 t hl).1 (idle6 t hl).2]
    iapply ((runMid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (fun h => hf ((first_iff t).mp h)) (fun h => hl ((last_iff t).mp h)) (win0_0.fill (grid0.coords t) d0 (iblk m c 0 t)) (win0_1.fill (grid0.coords t) d1 (iblk m c 1 t)) (iblk m c 2 t) Xs).2 Set.univ _)
    isplitl [H0]; · iexact H0
    isplitl [H1]; · iexact H1
    isplitl [H2]; · iexact H2
    isplitl [HS]; · iexact HS
    iintro ⟨H0, H1, H2, ⟨%fs, HS⟩⟩
    isplitl [HS Hg]
    · isplitl [HS]
      · iexists (k0_pay2 (F := Ideal) (grid0.coords t) (win0_1.fill (grid0.coords t) d1 (iblk m c 1 t)) (iblk m c 2 t) (win0_0.fill (grid0.coords t) d0 (iblk m c 0 t)) Xs)
        isplitl [HS]
        · iapply (owns_of_read c accM _ _ (leftMid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (fun h => hf ((first_iff t).mp h)) (fun h => hl ((last_iff t).mp h)) (win0_0.fill (grid0.coords t) d0 (iblk m c 0 t)) (win0_1.fill (grid0.coords t) d1 (iblk m c 1 t)) (iblk m c 2 t) Xs fs)); iexact HS
        · ipureintro; intro _; rw [Nat.add_sub_cancel]; exact acc_next m c t hf d0 d1 Xs hXs'
      iexact Hg
    isplitl [Ho]; · iexact Ho
    isplitl [H0]
    · iexists d0; rw [e0]; try iexact H0
    isplitl [H1]
    · iexists d1; rw [e1]; try iexact H1
    isplitl [H2]; · rw [after_2]; try iexact H2
    isplitl [H3]; · rw [after_3]; try iexact H3
    isplitl [H4]; · rw [after_4]; try iexact H4
    isplitl [H5]; · rw [after_5]; try iexact H5
    iexists d6; iexact H6

/-- The library's body obligation, at every point. -/
theorem body_obligation (c : Dev nD) :
    Pipeline.BodyObligationLoose (dats m 0 c) (defs₀ (F := Ideal)) Variants.none () Set.univ := fun t => by
  rw [bigSep_W0, bigSep_W0]
  exact sound_body m c t

/-! ## The run -/

/-- What the region hands over is the invariant before the first point: nothing has run, nothing is claimed. -/
theorem hin (c : Dev nD) : Pipeline.ΦA spec0 c ⊢ (dats m 0 c).Φ 0 := by
  rw [show (dats m 0 c).Φ 0 = PhiS m c 0 from rfl, PhiA_eq]; unfold PhiS
  iintro ⟨⟨%d, HS⟩, Hg⟩
  isplitl [HS]
  · iexists d; isplitl [HS]; · iexact HS
    ipureintro; intro h; exact absurd rfl h
  iexact Hg

/-- After the last point the invariant gives it back: what the accumulator holds is forgotten. -/
theorem hout (c : Dev nD) : (dats m 0 c).Φ (Fin.last cfg0.N) ⊢ Pipeline.ΦA spec0 c := by
  rw [show (dats m 0 c).Φ (Fin.last cfg0.N) = PhiS m c cfg0.N from rfl, PhiA_eq]; unfold PhiS
  iintro ⟨⟨%Xs, HS, -⟩, Hg⟩
  isplitl [HS]; · iexists Xs; iexact HS
  iexact Hg

set_option backward.isDefEq.respectTransparency.types false in
/-- Every weakly fair execution terminates without a fault, every array of the pipeline ending at what the write-backs
    of the proof data leave and the two bias vectors, which bypass it, as they began. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl) (howed := fun _ _ => rfl)
    (V := V m) (hmain := hmain m Variants.none) (hA := A_eq m) (hin := hin m) (hout := hout m)

end AtIdeal

end Cert.KernelIdeal.Hand

end
-- ==== Proof.IdealFinal.lean ====
/-
  The idealized kernel's result array is the specification.

  The output block of row block i is written back at the row's last point and at no other, clipped at the array's end;
  what is written is the result's block (the proof data's choice, which the body obligation checked). The six write-backs'
  blocks cover the array: entry (R, q) lies in the block of row block R / 2048. So after the run the result array holds
  the specification at every entry; and the specification's arguments, read off the arrays as the region finds them, are
  the program's arguments — the two biases through the reshape that puts a unit axis in front.
-/
import proofs.«118109_j22737556865408_2_alg».proof.Proof.IdealBody
import Idealize.ShloMosaic.Lib.StableHlo.Run

set_option maxRecDepth 16384

noncomputable section

open scoped BigOperators

namespace Cert.KernelIdeal.Hand

open Cert.KernelIdeal Cert.KernelIdeal.Gen Cert.KernelIdeal.Blocks
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- What a write-back writes is the result's block. -/
theorem flushed_eq (c : Dev nD) (t : Fin cfg0.N) (hf : (cfg0.win 6).flush t = true) :
    (dats m 0 c).flushed 6 t = ((cfg0.win 6).blk t).view.read (Elt Ideal) (Gm m c) := by
  show win0_6.cut (grid0.coords t) ((dats m 0 c).after 6 t) = _
  rw [after_6]; exact win0_6.cut_fill _ _ _

/-- Every entry of the result array lies in the block some row's last point writes back. -/
theorem cover (c : Dev nD) (i : ((cfg0.win 6).arr.view.loc (c.tc : Thread nD τ)).2.ty.Idx) :
    ∃ t : Fin cfg0.N, (cfg0.win 6).flush t = true ∧ i ∈ ((cfg0.win 6).blk t).view.set := by
  have hR : (i 0).val < 12000 := (i 0).isLt
  have hq : (i 1).val < 16 := (i 1).isLt
  have hN : cfg0.N = 36 := N_0
  obtain ⟨t0, ht0⟩ : ∃ t0 : Fin cfg0.N, t0.val = (i 0).val / 2048 * 6 + 5 := ⟨⟨(i 0).val / 2048 * 6 + 5, by omega⟩, rfl⟩
  refine ⟨t0, (flush0_6 t0).mpr (by omega), ?_⟩
  show i ∈ ((View.whole main_v2).slice (win0_6.rect t0)).set
  rw [View.set_slice_whole, Rect.mem_set_unit]
  intro a
  match a with
  | ⟨0, _⟩ =>
    show win0_6.index t0 0 * 2048 ≤ (i 0).val ∧ (i 0).val < win0_6.index t0 0 * 2048 + win0_6.xsize (grid0.coords t0) 0
    rw [(idx6 t0).1, (xs6 t0).1]; split <;> omega
  | ⟨1, _⟩ =>
    show win0_6.index t0 1 * 16 ≤ (i 1).val ∧ (i 1).val < win0_6.index t0 1 * 16 + win0_6.xsize (grid0.coords t0) 1
    rw [(idx6 t0).2, (xs6 t0).2]; omega

/-- After the run the result array holds the specification. -/
theorem final (c : Dev nD) : (dats m 0 c).arrAt 6 cfg0.N = Gm m c :=
  (dats m 0 c).arrAt_eq_of_cover 6 (Gm m c) (fun t hf => flushed_eq m c t hf) (cover c)

/-- The run, read at the result and the arguments. -/
theorem run_value : θ_run defs (onTc (τ := τ) (main (F := Ideal))) ⟨m, fun _ => 0, ρ⟩ (fun r => ∀ c : Dev nD,
      r.2.mem ((c.tc : Thread nD τ).loc main_v2) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

/-! ## The specification's arguments are the program's -/

/-- The first bias as the pipeline stages it: the argument vector with a unit axis in front. -/
theorem V_main_v0 (c : Dev nD) : (V m c main_v0 : S1x32.Idx → EReal)
    = shapeCast S1x32 (m ((c : Thread nD τ).loc main_arg3) : S32.Idx → EReal) shapeCasts_S32_S1x32 := by
  dsimp only [V, hostOps0]; after_results; rfl
/-- The second bias likewise. -/
theorem V_main_v1 (c : Dev nD) : (V m c main_v1 : S1x16.Idx → EReal)
    = shapeCast S1x16 (m ((c : Thread nD τ).loc main_arg5) : S16.Idx → EReal) shapeCasts_S16_S1x16 := by
  dsimp only [V, hostOps0]; after_results; rfl

theorem argB1_eq (c : Dev nD) (h : Fin 32) : argB1 m c h = (m ((c : Thread nD τ).loc main_arg3) : S32.Idx → EReal) (ix1 h) := by
  show (V m c main_v0 : S1x32.Idx → EReal) (ix2 0 h) = _
  rw [V_main_v0, shapeCast_addUnit_apply]
  refine congrArg _ (funext fun a => ?_)
  match a with
  | ⟨0, _⟩ => rfl
theorem argB2_eq (c : Dev nD) (q : Fin 16) : argB2 m c q = (m ((c : Thread nD τ).loc main_arg5) : S16.Idx → EReal) (ix1 q) := by
  show (V m c main_v1 : S1x16.Idx → EReal) (ix2 0 q) = _
  rw [V_main_v1, shapeCast_addUnit_apply]
  refine congrArg _ (funext fun a => ?_)
  match a with
  | ⟨0, _⟩ => rfl

/-- The result array, in the program's arguments. -/
theorem Gm_args (c : Dev nD) (r : Fin 12000) (q : Fin 16) :
    (Gm m c : S12000x16.Idx → EReal) (ix2 r q)
      = Cert.GcnSpec.logits (fun r k => (m ((c : Thread nD τ).loc main_arg1) : S12000x12000.Idx → EReal) (ix2 r k))
          (fun k d => (m ((c : Thread nD τ).loc main_arg0) : S12000x32.Idx → EReal) (ix2 k d))
          (fun d h => (m ((c : Thread nD τ).loc main_arg2) : S32x32.Idx → EReal) (ix2 d h))
          (fun h => (m ((c : Thread nD τ).loc main_arg3) : S32.Idx → EReal) (ix1 h))
          (fun h q => (m ((c : Thread nD τ).loc main_arg4) : S32x16.Idx → EReal) (ix2 h q))
          (fun q => (m ((c : Thread nD τ).loc main_arg5) : S16.Idx → EReal) (ix1 q)) r q := by
  rw [Gm_apply]
  have eA : argA m c = fun r k => (m ((c : Thread nD τ).loc main_arg1) : S12000x12000.Idx → EReal) (ix2 r k) := by
    funext r k; show (V m c main_arg1 : S12000x12000.Idx → EReal) (ix2 r k) = _; rw [V_main_arg1]
  have eX : argX m c = fun k d => (m ((c : Thread nD τ).loc main_arg0) : S12000x32.Idx → EReal) (ix2 k d) := by
    funext k d; show (V m c main_arg0 : S12000x32.Idx → EReal) (ix2 k d) = _; rw [V_main_arg0]
  have eW1 : argW1 m c = fun d h => (m ((c : Thread nD τ).loc main_arg2) : S32x32.Idx → EReal) (ix2 d h) := by
    funext d h; show (V m c main_arg2 : S32x32.Idx → EReal) (ix2 d h) = _; rw [V_main_arg2]
  have eW2 : argW2 m c = fun h q => (m ((c : Thread nD τ).loc main_arg4) : S32x16.Idx → EReal) (ix2 h q) := by
    funext h q; show (V m c main_arg4 : S32x16.Idx → EReal) (ix2 h q) = _; rw [V_main_arg4]
  have eB1 : argB1 m c = fun h => (m ((c : Thread nD τ).loc main_arg3) : S32.Idx → EReal) (ix1 h) := funext (argB1_eq m c)
  have eB2 : argB2 m c = fun q => (m ((c : Thread nD τ).loc main_arg5) : S16.Idx → EReal) (ix1 q) := funext (argB2_eq m c)
  rw [eA, eX, eW1, eW2, eB1, eB2]

end Cert.KernelIdeal.Hand

end
-- ==== Proof.RefSide.lean ====
/-
  The reference's result, entry by entry, is the specification.

  The reference is nine host operations: features times the first weight matrix, the adjacency matrix times that, the
  first bias repeated down the rows and added, times the second weight matrix, the second bias repeated and added. Read
  at an entry (r, q), with each product a sum over its contracted axis, that is the specification's formula at (r, q).
-/
import proofs.«118109_j22737556865408_2_alg».proof.Proof.Gen.ReferenceIdeal.Read
import proofs.«118109_j22737556865408_2_alg».proof.Proof.Spec

noncomputable section

open scoped BigOperators

namespace Cert.ReferenceIdeal.RefValue

open Cert.ReferenceIdeal Cert.ReferenceIdeal.Read
open Idealize.ShloMosaic Idealize.ShloMosaic.ValueIdx

theorem result_apply (x0 : (⟨S12000x32, .f32⟩ : BufTy).Contents (Elt Ideal)) (x1 : (⟨S12000x12000, .f32⟩ : BufTy).Contents (Elt Ideal))
    (x2 : (⟨S32x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal)) (r : Fin 12000) (q : Fin 16) :
    val_main_v8 (F := Ideal) x0 x1 x2 x3 x4 x5 (ix2 r q)
      = Cert.GcnSpec.logits (fun r k => x1 (ix2 r k)) (fun k d => x0 (ix2 k d)) (fun d h => x2 (ix2 d h)) (fun h => x3 (ix1 h))
          (fun h q => x4 (ix2 h q)) (fun q => x5 (ix1 q)) r q := by
  rw [val_main_v8_apply]
  show val_main_v5 (F := Ideal) x0 x1 x2 x3 x4 (ix2 r q) + val_main_v7 (F := Ideal) x5 (ix2 r q) = _
  rw [val_main_v5_apply, val_main_v7_apply, val_main_v6_apply]
  have i7 : idx_main_v6 (idx_main_v7 (ix2 r q)) = ix1 q := funext fun a => Fin.ext (by
    match a with
    | ⟨0, _⟩ => rfl)
  rw [i7]
  unfold Cert.GcnSpec.logits
  refine congrArg (· + x5 (ix1 q)) (Finset.sum_congr rfl fun h _ => ?_)
  have l5 : lidx_main_v5 (ix2 r q) h = ix2 r h := funext fun a => Fin.ext (by
    match a with
    | ⟨0, _⟩ => rfl
    | ⟨1, _⟩ => rfl)
  have r5 : ridx_main_v5 (ix2 r q) h = ix2 h q := funext fun a => Fin.ext (by
    match a with
    | ⟨0, _⟩ => rfl
    | ⟨1, _⟩ => rfl)
  rw [l5, r5, val_main_v4_apply]
  show (val_main_v1 (F := Ideal) x0 x1 x2 (ix2 r h) + val_main_v3 (F := Ideal) x3 (ix2 r h)) * x4 (ix2 h q) = _
  rw [val_main_v1_apply, val_main_v3_apply, val_main_v2_apply]
  have i3 : idx_main_v2 (idx_main_v3 (ix2 r h)) = ix1 h := funext fun a => Fin.ext (by
    match a with
    | ⟨0, _⟩ => rfl)
  rw [i3]
  refine congrArg (fun z => (z + x3 (ix1 h)) * x4 (ix2 h q)) ?_
  unfold Cert.GcnSpec.agg
  refine Finset.sum_congr rfl fun k _ => ?_
  have l1 : lidx_main_v1 (ix2 r h) k = ix2 r k := funext fun a => Fin.ext (by
    match a with
    | ⟨0, _⟩ => rfl
    | ⟨1, _⟩ => rfl)
  have r1 : ridx_main_v1 (ix2 r h) k = ix2 k h := funext fun a => Fin.ext (by
    match a with
    | ⟨0, _⟩ => rfl
    | ⟨1, _⟩ => rfl)
  rw [l1, r1, val_main_v0_apply]
  refine congrArg (x1 (ix2 r k) * ·) ?_
  unfold Cert.GcnSpec.support
  refine Finset.sum_congr rfl fun d _ => ?_
  have l0 : lidx_main_v0 (ix2 k h) d = ix2 k d := funext fun a => Fin.ext (by
    match a with
    | ⟨0, _⟩ => rfl
    | ⟨1, _⟩ => rfl)
  have r0 : ridx_main_v0 (ix2 k h) d = ix2 d h := funext fun a => Fin.ext (by
    match a with
    | ⟨0, _⟩ => rfl
    | ⟨1, _⟩ => rfl)
  rw [l0, r0]

end Cert.ReferenceIdeal.RefValue

end
-- ==== Proof.lean ====
/-
  A graph-convolution exit block, out = ((A · (X · W1)) + b1) · W2 + b2, over 12000 nodes: the kernel against its
  plain reference, equal on the extended reals.

  The kernel streams the 12000 x 12000 matrix A once, in 2048 x 2048 blocks on a 6 x 6 grid. Neither the rows nor the
  columns tile: the last block of each overhangs A by 288, and its staging buffer holds, past A's end, words nothing
  names. At column block j the kernel zeroes the feature rows past row 12000, multiplies them by W1, multiplies A's block
  by that, and adds the product to an accumulator it zeroed at j = 0; at j = 5 it adds b1, multiplies by W2, adds b2 and
  stores the block of out, whose part inside the result array is written back.

  On the extended reals a change of float format is the identity and each matrix product is a sum of products. The
  unnamed words of A's buffer meet zero feature rows, and zero times anything is zero; the words past A's last row land in
  accumulator rows and output rows that are never written back. So on the rows inside A the accumulator holds, after
  column block j, the sum of the column blocks 0 .. j of A · (X · W1) — an invariant set up at j = 0 and kept by every
  step — and after j = 5 all 12000 columns' terms, regrouped six blocks of 2048: a finite sum regroups freely, so no
  finiteness of any input is used and the precondition is never opened. The six write-backs' blocks cover the result
  array, so it ends at the specification entry by entry; the reference's nine host operations read at an entry are the
  same formula.

  The word-level kernel's frame is proved with its output unnamed: there the unnamed words may be anything a float
  product does not annihilate, so nothing is said of the result, only that the run ends, nothing faults and the
  arguments are as they were. The idealization changed no operation, so nothing is owed for it.
-/
import proofs.«118109_j22737556865408_2_alg».proof.Defs
import proofs.«118109_j22737556865408_2_alg».proof.Proof.Gen.Kernel
import proofs.«118109_j22737556865408_2_alg».proof.Proof.Gen.KernelIdeal
import proofs.«118109_j22737556865408_2_alg».proof.Proof.Gen.ReferenceIdeal
import proofs.«118109_j22737556865408_2_alg».proof.Proof.Gen.Pre_finite_inputs
import proofs.«118109_j22737556865408_2_alg».proof.Proof.BitsBody
import proofs.«118109_j22737556865408_2_alg».proof.Proof.IdealFinal
import proofs.«118109_j22737556865408_2_alg».proof.Proof.RefSide
import Idealize.ShloMosaic.Adequacy
import Idealize.ShloMosaic.Init

noncomputable section

namespace Cert.Proof

open Idealize.ShloMosaic Idealize.SL.Sem Idealize.ShloMosaic.ValueIdx

/-- The word-level kernel runs to the end, faults nowhere and leaves its arguments as they were. -/
theorem frame_kernel : Cert.frame_Kernel := fun m ρ _ => Cert.Kernel.Hand.frame m ρ

/-- So does the idealized kernel: its run with the result named, the result dropped. -/
theorem frame_kernelIdeal : Cert.frame_KernelIdeal := fun m ρ _ =>
  (θ_run Cert.KernelIdeal.defs _ _).mono (fun _ h c => (h c).2) (Cert.KernelIdeal.Hand.run_value m ρ)

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the specification of those arguments. -/
theorem algebraic : Cert.algebraic_KernelIdeal_ReferenceIdeal := by
  intro m ρ m' ρ' _ hagree
  refine ⟨fun c => Cert.KernelIdeal.Blocks.Gm m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rw [Cert.ReferenceIdeal.Read.val_main_v8_eq]
  funext (o : Cert.KernelIdeal.S12000x16.Idx)
  obtain ⟨r, q, rfl⟩ : ∃ (r : Fin 12000) (q : Fin 16), o = ix2 r q := ⟨o 0, o 1, eq_ix2 o⟩
  rw [Cert.ReferenceIdeal.RefValue.result_apply]
  exact (Cert.KernelIdeal.Hand.Gm_args m c r q).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
